-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S64x1 : Shape := ⟨2, ![64, 1]⟩
abbrev S64 : Shape := ⟨1, ![64]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8x2048 .f32) (main_arg1 : FVec F S8x2048 .f32) (main_arg2 : FVec F S8x2048 .f32) (main_arg3 : FVec F S64x1 .f32) (main_arg4 : FVec F S64 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S8x2048 : Shape := ⟨2, ![8, 2048]⟩
abbrev S64x1 : Shape := ⟨2, ![64, 1]⟩
abbrev S64 : Shape := ⟨1, ![64]⟩
abbrev S8x2048x1 : Shape := ⟨3, ![8, 2048, 1]⟩
abbrev S8x1x2048 : Shape := ⟨3, ![8, 1, 2048]⟩
abbrev S1x64 : Shape := ⟨2, ![1, 64]⟩
abbrev S8x2048x64 : Shape := ⟨3, ![8, 2048, 64]⟩
abbrev S8x2048x2048 : Shape := ⟨3, ![8, 2048, 2048]⟩
abbrev S1x512x1 : Shape := ⟨3, ![1, 512, 1]⟩
abbrev S1x1x2048 : Shape := ⟨3, ![1, 1, 2048]⟩
abbrev S1x512x64 : Shape := ⟨3, ![1, 512, 64]⟩
abbrev S1x512x2048 : Shape := ⟨3, ![1, 512, 2048]⟩
abbrev S512x1 : Shape := ⟨2, ![512, 1]⟩
abbrev S1x2048 : Shape := ⟨2, ![1, 2048]⟩
abbrev S1 : Shape := ⟨1, ![1]⟩
abbrev S1x1 : Shape := ⟨2, ![1, 1]⟩
abbrev S512x2048 : Shape := ⟨2, ![512, 2048]⟩
abbrev S512 : Shape := ⟨1, ![512]⟩
abbrev S512x64 : Shape := ⟨2, ![512, 64]⟩

abbrev nBuf : Space → Nat
  | .hbm => 13
  | .vmem => 10
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S64x1, .f32⟩
  | .hbm, ⟨4, _⟩ => ⟨S64, .f32⟩
  | .hbm, ⟨5, _⟩ => ⟨S8x2048x1, .f32⟩
  | .hbm, ⟨6, _⟩ => ⟨S8x1x2048, .f32⟩
  | .hbm, ⟨7, _⟩ => ⟨S8x1x2048, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S8x2048x64, .f32⟩
  | .hbm, ⟨12, _⟩ => ⟨S8x2048x2048, .f32⟩
  | .local _ .vmem, ⟨0, _⟩ => ⟨S1x512x1, .f32⟩
  | .local _ .vmem, ⟨1, _⟩ => ⟨S1x512x1, .f32⟩
  | .local _ .vmem, ⟨2, _⟩ => ⟨S1x1x2048, .f32⟩
  | .local _ .vmem, ⟨3, _⟩ => ⟨S1x1x2048, .f32⟩
  | .local _ .vmem, ⟨4, _⟩ => ⟨S1x64, .f32⟩
  | .local _ .vmem, ⟨5, _⟩ => ⟨S1x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8x2048_S8x2048x1 : S8x2048.ShapeCasts S8x2048x1
  shapeCasts_S8x2048_S8x1x2048 : S8x2048.ShapeCasts S8x1x2048
  shapeCasts_S64x1_S64 : S64x1.ShapeCasts S64
  shapeCasts_S64_S1x64 : S64.ShapeCasts S1x64
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S1x64_S1 : S1x64.Reduces [1] S1
  shapeCasts_S1_S1x1 : S1.ShapeCasts S1x1
  broadcasts_S512x1_S512x2048 : S512x1.Broadcasts S512x2048
  broadcasts_S1x2048_S512x2048 : S1x2048.Broadcasts S512x2048
  broadcasts_S1x1_S512x2048 : S1x1.Broadcasts S512x2048
  broadcasts_S1x1_S512x1 : S1x1.Broadcasts S512x1
  broadcasts_S1x1_S1x2048 : S1x1.Broadcasts S1x2048
  reduces_S512x2048_S512 : S512x2048.Reduces [1] S512
  shapeCasts_S512_S512x1 : S512.ShapeCasts S512x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  broadcasts_S512x1_S512x64 : S512x1.Broadcasts S512x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S8x2048x1.size a
  hwx0_0 : ∀ i : grid0.Coords, EltTy.bits .f32 = 32 ∨ (Rect.block (s := S8x2048x1) S1x512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S8x1x2048.size a
  hwx0_1 : ∀ i : grid0.Coords, EltTy.bits .f32 = 32 ∨ (Rect.block (s := S8x1x2048) S1x1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S8x2048x64.size a
  hwx0_5 : ∀ i : grid0.Coords, EltTy.bits .f32 = 32 ∨ (Rect.block (s := S8x2048x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S8x2048x2048.size a
  hwx0_6 : ∀ i : grid0.Coords, EltTy.bits .f32 = 32 ∨ (Rect.block (s := S8x2048x2048) S1x512x2048.size (cc0_transform_6 i) (hinb0_6 i)).WholeWords (EltTy.packing .f32)

variable [Facts₀]

abbrev win0_0 : Pipeline.Window sig grid0 :=
  Pipeline.Window.ofSpec (Memref.whole main_v0) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048 : Shape := ⟨2, ![8, 2048]⟩
abbrev S64x1 : Shape := ⟨2, ![64, 1]⟩
abbrev S64 : Shape := ⟨1, ![64]⟩
abbrev S8x2048x1 : Shape := ⟨3, ![8, 2048, 1]⟩
abbrev S1x1x64 : Shape := ⟨3, ![1, 1, 64]⟩
abbrev S8x2048x64 : Shape := ⟨3, ![8, 2048, 64]⟩
abbrev S8x2048x2048 : Shape := ⟨3, ![8, 2048, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S64x1, .f32⟩
  | .hbm, ⟨4, _⟩ => ⟨S64, .f32⟩
  | .hbm, ⟨5, _⟩ => ⟨S8x2048x1, .f32⟩
  | .hbm, ⟨6, _⟩ => ⟨S64, .f32⟩
  | .hbm, ⟨7, _⟩ => ⟨S1x1x64, .f32⟩
  | .hbm, ⟨8, _⟩ => ⟨S8x2048x64, .f32⟩
  | .hbm, ⟨9, _⟩ => ⟨S8x2048x64, .f32⟩
  | .hbm, ⟨10, _⟩ => ⟨S8x2048x64, .f32⟩
  | .hbm, ⟨11, _⟩ => ⟨S1x1x64, .f32⟩
  | .hbm, ⟨12, _⟩ => ⟨S8x2048x64, .f32⟩
  | .hbm, ⟨13, _⟩ => ⟨S8x2048x64, .f32⟩
  | .hbm, ⟨14, _⟩ => ⟨S8x2048x1, .f32⟩
  | .hbm, ⟨15, _⟩ => ⟨S64, .f32⟩
  | .hbm, ⟨16, _⟩ => ⟨S1x1x64, .f32⟩
  | .hbm, ⟨17, _⟩ => ⟨S8x2048x64, .f32⟩
  | .hbm, ⟨18, _⟩ => ⟨S8x2048x64, .f32⟩
  | .hbm, ⟨19, _⟩ => ⟨S8x2048x64, .f32⟩
  | .hbm, ⟨20, _⟩ => ⟨S1x1x64, .f32⟩
  | .hbm, ⟨21, _⟩ => ⟨S8x2048x64, .f32⟩
  | .hbm, ⟨22, _⟩ => ⟨S8x2048x64, .f32⟩
  | .hbm, ⟨23, _⟩ => ⟨S8x2048x1, .f32⟩
  | .hbm, ⟨24, _⟩ => ⟨S64, .f32⟩
  | .hbm, ⟨25, _⟩ => ⟨S1x1x64, .f32⟩
  | .hbm, ⟨26, _⟩ => ⟨S8x2048x64, .f32⟩
  | .hbm, ⟨27, _⟩ => ⟨S8x2048x64, .f32⟩
  | .hbm, ⟨28, _⟩ => ⟨S8x2048x64, .f32⟩
  | .hbm, ⟨29, _⟩ => ⟨S1x1x64, .f32⟩
  | .hbm, ⟨30, _⟩ => ⟨S8x2048x64, .f32⟩
  | .hbm, ⟨31, _⟩ => ⟨S8x2048x64, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S8x2048x64, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  shapeCasts_S64x1_S64 : S64x1.ShapeCasts S64
  bcast_S64_S1x1x64_2 : S64.BroadcastsInDim S1x1x64 (![2] : Fin 1 → Fin S1x1x64.rank)
  bcast_S8x2048x1_S8x2048x64_0_1_2 : S8x2048x1.BroadcastsInDim S8x2048x64 (![0, 1, 2] : Fin 3 → Fin S8x2048x64.rank)
  bcast_S1x1x64_S8x2048x64_0_1_2 : S1x1x64.BroadcastsInDim S8x2048x64 (![0, 1, 2] : Fin 3 → Fin S8x2048x64.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Spec.lean ====
/-
  The mathematics of this kernel, free of both programs.

  Per batch row `b` the inputs are three real sequences `q, k, v` of length 2048 and two real vectors `W, β` of length 64
  (the weight and bias of a `Linear(1, 64)`). Every scalar `x` is lifted to the vector `x·W + β`, and scaled dot-product
  attention (with no scale) is taken over the lifted sequences:

    score(q, k)   = ∑ₙ (q·Wₙ + βₙ)·(k·Wₙ + βₙ)                                   (the reference's spelling, `scoreR`)
                  = (∑ₙ Wₙ²)·(q·k) + (∑ₙ Wₙβₙ)·q + (∑ₙ Wₙβₙ)·k + ∑ₙ βₙ²           (the kernel's spelling, `scoreK`)
    weight(q, ·)  = softmax over the keys of score(q, ·), taken after subtracting the row's maximum
    attended(q)ₙ  = ∑ₖ weight(q,k)·(vₖ·Wₙ + βₙ)                                   (the reference's spelling, `attR`)
                  = (∑ₖ weight(q,k)·vₖ)·Wₙ + βₙ                                   (the kernel's spelling, `attK`)

  The first pair of spellings agrees by distributivity; the second because the softmax weights of a row sum to one. Both laws
  need the entries to be real numbers (on the extended reals a product does not distribute over a sum at the infinities, and
  the weights of a row with an infinite score do not sum to one), which is what the precondition gives.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## One row: scores, softmax weights, attended values -/

/-- The dot product of two vectors of length 64. -/
def dot64 (x y : Fin 64 → EReal) : EReal := ∑ n : Fin 64, x n * y n

/-- The score of a query scalar against a key scalar, as the kernel spells it: expanded in the three dot products of `W`, `β`. -/
def scoreK (W β : Fin 64 → EReal) (q k : EReal) : EReal :=
  dot64 W W * (q * k) + dot64 W β * q + dot64 W β * k + dot64 β β

/-- The same score as the reference spells it: the dot product of the two lifted scalars. -/
def scoreR (W β : Fin 64 → EReal) (q k : EReal) : EReal :=
  ∑ n : Fin 64, (q * W n + β n) * (k * W n + β n)

/-- The maximum of a row of 2048 scores (from `-∞`). -/
def rowMax (s : Fin 2048 → EReal) : EReal := (Finset.univ : Finset (Fin 2048)).fold max ⊥ s

/-- The softmax weight of key `k` in a row of scores: `exp (sₖ - max s) / ∑ⱼ exp (sⱼ - max s)`. -/
def softmax (s : Fin 2048 → EReal) (k : Fin 2048) : EReal :=
  Ideal.div (Ideal.exp (s k - rowMax s)) (∑ j : Fin 2048, Ideal.exp (s j - rowMax s))

/-- The attended vector's entry `n` as the kernel spells it: the weighted mean of the value scalars, then lifted. -/
def attK (W β : Fin 64 → EReal) (p v : Fin 2048 → EReal) (n : Fin 64) : EReal :=
  (∑ k : Fin 2048, p k * v k) * W n + β n

/-- The same entry as the reference spells it: the weighted sum of the lifted value scalars. -/
def attR (W β : Fin 64 → EReal) (p v : Fin 2048 → EReal) (n : Fin 64) : EReal :=
  ∑ k : Fin 2048, p k * (v k * W n + β n)

/-! ## The two results as functions of the five argument arrays -/

/-- The weight column `[64, 1]` as a vector of length 64. -/
abbrev wvec (W : FVec Ideal ⟨2, ![64, 1]⟩ .f32) : Fin 64 → EReal := fun n => W (ix2 n (0 : Fin 1))
/-- The bias `[64]` as a vector of length 64. -/
abbrev bvec (B : FVec Ideal ⟨1, ![64]⟩ .f32) : Fin 64 → EReal := fun n => B (ix1 n)

/-- Row `(b, q)` of scores against every key, the kernel's spelling. -/
def scoresK (Q K : FVec Ideal ⟨2, ![8, 2048]⟩ .f32) (W : FVec Ideal ⟨2, ![64, 1]⟩ .f32) (B : FVec Ideal ⟨1, ![64]⟩ .f32)
    (b : Fin 8) (q : Fin 2048) : Fin 2048 → EReal :=
  fun j => scoreK (wvec W) (bvec B) (Q (ix2 b q)) (K (ix2 b j))

/-- Row `(b, q)` of scores against every key, the reference's spelling. -/
def scoresR (Q K : FVec Ideal ⟨2, ![8, 2048]⟩ .f32) (W : FVec Ideal ⟨2, ![64, 1]⟩ .f32) (B : FVec Ideal ⟨1, ![64]⟩ .f32)
    (b : Fin 8) (q : Fin 2048) : Fin 2048 → EReal :=
  fun j => scoreR (wvec W) (bvec B) (Q (ix2 b q)) (K (ix2 b j))

/-- The attention weights `[8, 2048, 2048]`, the kernel's spelling. -/
def weightsK (Q K : FVec Ideal ⟨2, ![8, 2048]⟩ .f32) (W : FVec Ideal ⟨2, ![64, 1]⟩ .f32) (B : FVec Ideal ⟨1, ![64]⟩ .f32) :
    FVec Ideal ⟨3, ![8, 2048, 2048]⟩ .f32 :=
  fun i => softmax (scoresK Q K W B (i 0) (i 1)) (i 2)

/-- The attention weights `[8, 2048, 2048]`, the reference's spelling. -/
def weightsR (Q K : FVec Ideal ⟨2, ![8, 2048]⟩ .f32) (W : FVec Ideal ⟨2, ![64, 1]⟩ .f32) (B : FVec Ideal ⟨1, ![64]⟩ .f32) :
    FVec Ideal ⟨3, ![8, 2048, 2048]⟩ .f32 :=
  fun i => softmax (scoresR Q K W B (i 0) (i 1)) (i 2)

/-- The attended values `[8, 2048, 64]`, the kernel's spelling. -/
def attendedK (Q K V : FVec Ideal ⟨2, ![8, 2048]⟩ .f32) (W : FVec Ideal ⟨2, ![64, 1]⟩ .f32) (B : FVec Ideal ⟨1, ![64]⟩ .f32) :
    FVec Ideal ⟨3, ![8, 2048, 64]⟩ .f32 :=
  fun i => attK (wvec W) (bvec B) (softmax (scoresK Q K W B (i 0) (i 1))) (fun k => V (ix2 (i 0) k)) (i 2)

/-- The attended values `[8, 2048, 64]`, the reference's spelling. -/
def attendedR (Q K V : FVec Ideal ⟨2, ![8, 2048]⟩ .f32) (W : FVec Ideal ⟨2, ![64, 1]⟩ .f32) (B : FVec Ideal ⟨1, ![64]⟩ .f32) :
    FVec Ideal ⟨3, ![8, 2048, 64]⟩ .f32 :=
  fun i => attR (wvec W) (bvec B) (softmax (scoresR Q K W B (i 0) (i 1))) (fun k => V (ix2 (i 0) k)) (i 2)

end Cert.Attn

end
-- ==== Proof.Algebra.lean ====
/-
  The two laws that join the kernel's spelling to the reference's, for real entries.

  1. Distributivity: ∑ₙ (q·Wₙ + βₙ)·(k·Wₙ + βₙ) = (∑ₙ Wₙ²)·(q·k) + (∑ₙ Wₙβₙ)·q + (∑ₙ Wₙβₙ)·k + ∑ₙ βₙ².
  2. A row of softmax weights of real scores consists of positive reals that sum to one, so a weighted sum of lifted values
     is the lift of the weighted sum: ∑ₖ pₖ·(vₖ·Wₙ + βₙ) = (∑ₖ pₖ·vₖ)·Wₙ + βₙ·∑ₖ pₖ = (∑ₖ pₖ·vₖ)·Wₙ + βₙ.

  Both are proved on the reals and carried to the extended reals through the coercion, which commutes with finite sums,
  products, differences, the exponential, and division by a nonzero real.
-/
import proofs.«170892_j31679678775913_2_alg».proof.Proof.Spec

noncomputable section

open scoped BigOperators

namespace Cert.Attn

open Idealize.ShloMosaic Idealize.ShloMosaic.ValueIdx

/-- The coercion of the reals into the extended reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The dot product of two real vectors, computed in the extended reals, is the real dot product. -/
theorem dot64_coe (x y : Fin 64 → ℝ) :
    dot64 (fun n => (x n : EReal)) (fun n => (y n : EReal)) = ((∑ n : Fin 64, x n * y n : ℝ) : EReal) := by
  unfold dot64
  rw [coe_sum]
  exact Finset.sum_congr rfl fun n _ => (EReal.coe_mul _ _).symm

/-- The reference's score of real entries is the real number it spells. -/
theorem scoreR_coe (w b : Fin 64 → ℝ) (q k : ℝ) :
    scoreR (fun n => (w n : EReal)) (fun n => (b n : EReal)) (q : EReal) (k : EReal)
      = ((∑ n : Fin 64, (q * w n + b n) * (k * w n + b n) : ℝ) : EReal) := by
  unfold scoreR
  rw [coe_sum]
  refine Finset.sum_congr rfl fun n _ => ?_
  rw [EReal.coe_mul, EReal.coe_add, EReal.coe_add, EReal.coe_mul, EReal.coe_mul]

/-- Distributivity, on the reals. -/
theorem score_real (w b : Fin 64 → ℝ) (q k : ℝ) :
    (∑ n : Fin 64, w n * w n) * (q * k) + (∑ n : Fin 64, w n * b n) * q + (∑ n : Fin 64, w n * b n) * k + ∑ n : Fin 64, b n * b n
      = ∑ n : Fin 64, (q * w n + b n) * (k * w n + b n) := by
  rw [Finset.sum_mul, Finset.sum_mul, Finset.sum_mul, ← Finset.sum_add_distrib, ← Finset.sum_add_distrib,
    ← Finset.sum_add_distrib]
  exact Finset.sum_congr rfl fun n _ => by ring

/-- The kernel's score of real entries is the same real number. -/
theorem scoreK_coe (w b : Fin 64 → ℝ) (q k : ℝ) :
    scoreK (fun n => (w n : EReal)) (fun n => (b n : EReal)) (q : EReal) (k : EReal)
      = ((∑ n : Fin 64, (q * w n + b n) * (k * w n + b n) : ℝ) : EReal) := by
  unfold scoreK
  rw [dot64_coe, dot64_coe, dot64_coe, ← score_real]
  rw [EReal.coe_add, EReal.coe_add, EReal.coe_add, EReal.coe_mul, EReal.coe_mul, EReal.coe_mul, EReal.coe_mul]

/-- LAW 1: for real entries the two spellings of a score agree. -/
theorem scoreK_eq_scoreR (W β : Fin 64 → EReal) (q k : EReal) (hW : ∀ n, ∃ r : ℝ, W n = (r : EReal))
    (hβ : ∀ n, ∃ r : ℝ, β n = (r : EReal)) (hq : ∃ r : ℝ, q = (r : EReal)) (hk : ∃ r : ℝ, k = (r : EReal)) :
    scoreK W β q k = scoreR W β q k := by
  choose w hw using hW
  choose b hb using hβ
  obtain ⟨q', rfl⟩ := hq
  obtain ⟨k', rfl⟩ := hk
  obtain rfl : W = fun n => (w n : EReal) := funext hw
  obtain rfl : β = fun n => (b n : EReal) := funext hb
  rw [scoreK_coe, scoreR_coe]

/-- … and that common value is a real number. -/
theorem scoreR_real (W β : Fin 64 → EReal) (q k : EReal) (hW : ∀ n, ∃ r : ℝ, W n = (r : EReal))
    (hβ : ∀ n, ∃ r : ℝ, β n = (r : EReal)) (hq : ∃ r : ℝ, q = (r : EReal)) (hk : ∃ r : ℝ, k = (r : EReal)) :
    ∃ r : ℝ, scoreR W β q k = (r : EReal) := by
  choose w hw using hW
  choose b hb using hβ
  obtain ⟨q', rfl⟩ := hq
  obtain ⟨k', rfl⟩ := hk
  obtain rfl : W = fun n => (w n : EReal) := funext hw
  obtain rfl : β = fun n => (b n : EReal) := funext hb
  exact ⟨_, scoreR_coe w b q' k'⟩

/-- The maximum of a row of real scores is one of them: a real number. -/
theorem rowMax_coe (s : Fin 2048 → ℝ) : ∃ M : ℝ, rowMax (fun j => (s j : EReal)) = (M : EReal) := by
  have h : rowMax (fun j => (s j : EReal)) = (Finset.univ : Finset (Fin 2048)).sup (fun j => (s j : EReal)) := rfl
  obtain ⟨i, -, hi⟩ := Finset.exists_mem_eq_sup (Finset.univ : Finset (Fin 2048)) ⟨0, Finset.mem_univ _⟩ (fun j => (s j : EReal))
  exact ⟨s i, h.trans hi⟩

/-- A row of softmax weights of real scores: positive reals (here: reals) that sum to one. -/
theorem softmax_coe (s : Fin 2048 → ℝ) :
    ∃ p : Fin 2048 → ℝ, (∀ k, softmax (fun j => (s j : EReal)) k = (p k : EReal)) ∧ ∑ k : Fin 2048, p k = 1 := by
  obtain ⟨M, hM⟩ := rowMax_coe s
  have hpos : 0 < ∑ j : Fin 2048, Real.exp (s j - M) :=
    Finset.sum_pos (fun j _ => Real.exp_pos _) ⟨0, Finset.mem_univ _⟩
  have hden : (∑ j : Fin 2048, Ideal.exp ((s j : EReal) - (M : EReal))) = ((∑ j : Fin 2048, Real.exp (s j - M) : ℝ) : EReal) := by
    rw [coe_sum]
    exact Finset.sum_congr rfl fun j _ => by rw [← EReal.coe_sub, Ideal.exp_coe]
  refine ⟨fun k => Real.exp (s k - M) * (1 / ∑ j : Fin 2048, Real.exp (s j - M)), fun k => ?_, ?_⟩
  · unfold softmax
    rw [hM, hden, Ideal.div_coe hpos.ne', ← EReal.coe_sub, Ideal.exp_coe, ← EReal.coe_mul]
  · rw [← Finset.sum_mul, mul_one_div_cancel hpos.ne']

/-- The weighted sum of lifted values is the lift of the weighted sum when the weights sum to one, on the reals. -/
theorem att_real (p v : Fin 2048 → ℝ) (w b : ℝ) (hp : ∑ k : Fin 2048, p k = 1) :
    (∑ k : Fin 2048, p k * v k) * w + b = ∑ k : Fin 2048, p k * (v k * w + b) := by
  have : ∑ k : Fin 2048, p k * (v k * w + b) = (∑ k : Fin 2048, p k * v k) * w + (∑ k : Fin 2048, p k) * b := by
    rw [Finset.sum_mul, Finset.sum_mul, ← Finset.sum_add_distrib]
    exact Finset.sum_congr rfl fun k _ => by ring
  rw [this, hp, one_mul]

/-- LAW 2: for real scores, values, weight and bias the two spellings of an attended entry agree. -/
theorem attK_eq_attR (W β : Fin 64 → EReal) (s v : Fin 2048 → EReal) (n : Fin 64) (hW : ∃ r : ℝ, W n = (r : EReal))
    (hβ : ∃ r : ℝ, β n = (r : EReal)) (hs : ∀ j, ∃ r : ℝ, s j = (r : EReal)) (hv : ∀ j, ∃ r : ℝ, v j = (r : EReal)) :
    attK W β (softmax s) v n = attR W β (softmax s) v n := by
  obtain ⟨w, hw⟩ := hW
  obtain ⟨b, hb⟩ := hβ
  choose s' hs' using hs
  choose v' hv' using hv
  obtain rfl : s = fun j => (s' j : EReal) := funext hs'
  obtain rfl : v = fun j => (v' j : EReal) := funext hv'
  obtain ⟨p, hp, hsum⟩ := softmax_coe s'
  unfold attK attR
  rw [hw, hb]
  have hl : (∑ k : Fin 2048, softmax (fun j => (s' j : EReal)) k * (v' k : EReal)) = ((∑ k : Fin 2048, p k * v' k : ℝ) : EReal) := by
    rw [coe_sum]
    exact Finset.sum_congr rfl fun k _ => by rw [hp k, EReal.coe_mul]
  have hr : (∑ k : Fin 2048, softmax (fun j => (s' j : EReal)) k * ((v' k : EReal) * (w : EReal) + (b : EReal)))
      = ((∑ k : Fin 2048, p k * (v' k * w + b) : ℝ) : EReal) := by
    rw [coe_sum]
    exact Finset.sum_congr rfl fun k _ => by rw [hp k, EReal.coe_mul, EReal.coe_add, EReal.coe_mul]
  rw [hl, hr, ← att_real p v' w b hsum, EReal.coe_add, EReal.coe_mul]

/-! ## The two results, array by array -/

/-- For real argument arrays the two spellings of a row of scores agree. -/
theorem scoresK_eq_scoresR (Q K : FVec Ideal ⟨2, ![8, 2048]⟩ .f32) (W : FVec Ideal ⟨2, ![64, 1]⟩ .f32) (B : FVec Ideal ⟨1, ![64]⟩ .f32)
    (hQ : ∀ i, ∃ r : ℝ, Q i = (r : EReal)) (hK : ∀ i, ∃ r : ℝ, K i = (r : EReal)) (hW : ∀ i, ∃ r : ℝ, W i = (r : EReal))
    (hB : ∀ i, ∃ r : ℝ, B i = (r : EReal)) (b : Fin 8) (q : Fin 2048) :
    scoresK Q K W B b q = scoresR Q K W B b q :=
  funext fun j => scoreK_eq_scoreR _ _ _ _ (fun n => hW _) (fun n => hB _) (hQ _) (hK _)

/-- For real argument arrays the two spellings of the attention weights agree. -/
theorem weightsK_eq_weightsR (Q K : FVec Ideal ⟨2, ![8, 2048]⟩ .f32) (W : FVec Ideal ⟨2, ![64, 1]⟩ .f32) (B : FVec Ideal ⟨1, ![64]⟩ .f32)
    (hQ : ∀ i, ∃ r : ℝ, Q i = (r : EReal)) (hK : ∀ i, ∃ r : ℝ, K i = (r : EReal)) (hW : ∀ i, ∃ r : ℝ, W i = (r : EReal))
    (hB : ∀ i, ∃ r : ℝ, B i = (r : EReal)) :
    weightsK Q K W B = weightsR Q K W B := by
  funext i
  obtain ⟨b, q, k, rfl⟩ : ∃ (b : Fin 8) (q : Fin 2048) (k : Fin 2048), i = ix3 b q k := ⟨i 0, i 1, i 2, eq_ix3 i⟩
  show softmax (scoresK Q K W B b q) k = softmax (scoresR Q K W B b q) k
  rw [scoresK_eq_scoresR Q K W B hQ hK hW hB]

/-- For real argument arrays the two spellings of the attended values agree. -/
theorem attendedK_eq_attendedR (Q K V : FVec Ideal ⟨2, ![8, 2048]⟩ .f32) (W : FVec Ideal ⟨2, ![64, 1]⟩ .f32) (B : FVec Ideal ⟨1, ![64]⟩ .f32)
    (hQ : ∀ i, ∃ r : ℝ, Q i = (r : EReal)) (hK : ∀ i, ∃ r : ℝ, K i = (r : EReal)) (hV : ∀ i, ∃ r : ℝ, V i = (r : EReal))
    (hW : ∀ i, ∃ r : ℝ, W i = (r : EReal)) (hB : ∀ i, ∃ r : ℝ, B i = (r : EReal)) :
    attendedK Q K V W B = attendedR Q K V W B := by
  funext i
  obtain ⟨b, q, n, rfl⟩ : ∃ (b : Fin 8) (q : Fin 2048) (n : Fin 64), i = ix3 b q n := ⟨i 0, i 1, i 2, eq_ix3 i⟩
  show attK (wvec W) (bvec B) (softmax (scoresK Q K W B b q)) (fun k => V (ix2 b k)) n
    = attR (wvec W) (bvec B) (softmax (scoresR Q K W B b q)) (fun k => V (ix2 b k)) n
  rw [scoresK_eq_scoresR Q K W B hQ hK hW hB]
  exact attK_eq_attR _ _ _ _ _ (hW _) (hB _)
    (fun j => scoreR_real _ _ _ _ (fun n => hW _) (fun n => hB _) (hQ _) (hK _)) (fun j => hV _)

end Cert.Attn

end
-- ==== Proof.Finite.lean ====
/-
  Finiteness of the inputs, read off the precondition. The precondition is the conjunction of five tests, one per
  argument array `x`: the array of comparisons `|x i| < +∞`, reduced by `and` over every axis from the constant 1.
  Over the extended reals `|x| = max x (-x)`, and `max x (-x) < ⊤` fails at `x = ⊤` (the maximum is `⊤`) and at
  `x = ⊥` (then `-x = ⊤`), so it holds exactly at the coerced reals. A conjunction that is 1 has both conjuncts 1;
  an `and`-reduction into the one-index scalar shape that is 1 met a 1 at every index of its operand. Together:
  when the precondition evaluates to 1, every entry of each of the five arrays is `(r : EReal)` for a real `r`.
-/
import proofs.«170892_j31679678775913_2_alg».proof.Pre_finite_inputs
import proofs.«170892_j31679678775913_2_alg».proof.Proof.Gen.Pre_finite_inputs
import Idealize.ShloMosaic.Lib.ReduceAll
import Idealize.ShloMosaic.PureOps.Ideal

noncomputable section

namespace Cert.Attn.Finite

open Idealize.ShloMosaic Cert.Pre_finite_inputs

/-- The scalar shape has exactly one index. -/
local instance subsingleton_scalar_idx : Subsingleton S_.Idx := ⟨fun a b => funext fun d => d.elim0⟩

/-- The bit pattern `0x7F800000` is `+∞`. -/
theorem ofBits_posInf : Ideal.ofBits .f32 0x7F800000#32 = (⊤ : EReal) := by
  simp [Ideal.ofBits, Ideal.ieee]

/-- An extended real whose absolute value `max x (-x)` lies strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the comparison `|x| < +∞` evaluates to the bit 1 then `x` is a real number. -/
theorem real_of_cmp (x : EReal) (h : Ideal.cmp .olt (max x (-x)) (Ideal.ofBits .f32 0x7F800000#32) = 1#1) :
    ∃ r : ℝ, x = (r : EReal) := by
  rw [ofBits_posInf] at h
  unfold Ideal.cmp at h
  apply real_of_abs_lt_top
  by_contra hn
  simp [hn] at h

/-- One and-reduced comparison array `all (|x| < +∞)` that is 1 makes every entry of `x` real. -/
theorem real_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  have hi := Host.reduce_andi_all _ _ hr hu j e i
  exact real_of_cmp (x i) hi

/-- The precondition decoded: if the and-chain of the five tests `all (|x| < +∞)` evaluates to 1,
    every entry of each of the five argument arrays is a real number. -/
theorem real_of_fn [Cert.Pre_finite_inputs.Facts] (a0 a1 a2 : FVec Ideal S8x2048 .f32) (a3 : FVec Ideal S64x1 .f32) (a4 : FVec Ideal S64 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h (fun a => a.elim0)
  dsimp only [Cert.Pre_finite_inputs.fn, Cert.Pre_finite_inputs.fn_part1, andi] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨real_of_all _ _ _ a0 _ e0, real_of_all _ _ _ a1 _ e1, real_of_all _ _ _ a2 _ e2,
    real_of_all _ _ _ a3 _ e3, real_of_all _ _ _ a4 _ e4⟩

end Cert.Attn.Finite

end
-- ==== Proof.RefIs.lean ====
/-
  The reference program, read as mathematics.

  Per batch row `b` the reference lifts each scalar of the three sequences to a vector of length 64, `x ↦ x·W + β`
  (`W n = x3[n, 0]`, `β n = x4[n]`), and then runs plain attention on the lifted sequences:

    score[b, q, k]    = ∑ₙ (x0[b, q]·W n + β n)·(x1[b, k]·W n + β n)
    m[b, q]           = max (-∞) (the maximum over k of score[b, q, k], folded from -∞)   = the row's maximum
    e[b, q, k]        = exp (score[b, q, k] - m[b, q])
    d[b, q]           = 0 + ∑ₖ e[b, q, k]
    weight[b, q, k]   = e[b, q, k] / d[b, q]                                             = the softmax of the row
    attended[b, q, n] = ∑ₖ weight[b, q, k]·(x2[b, k]·W n + β n)

  Each line is one lemma below, stated at an index given by its coordinates; the two theorems at the end say that the
  weights and the attended values are the specification's `weightsR` and `attendedR`. Nothing here needs the entries
  to be finite: both sides are the same expression over the extended reals, and `max ⊥ x = x`, `0 + x = x` hold there.
-/
import proofs.«170892_j31679678775913_2_alg».proof.Proof.Gen.ReferenceIdeal.Read
import proofs.«170892_j31679678775913_2_alg».proof.Proof.Spec

noncomputable section

open scoped BigOperators

namespace Cert.Attn.Ref

open Cert.ReferenceIdeal Cert.ReferenceIdeal.Read Cert.ReferenceIdeal.Gen
open Idealize.ShloMosaic Idealize.ShloMosaic.ValueIdx

/-- The lifted query: entry `n` of the vector the reference builds from the scalar `x0[b, q]` is `x0[b, q]·W n + β n`. -/
theorem v8_apply (x0 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (q : Fin 2048) (n : Fin 64) :
    val_main_v8 (F := Ideal) x0 x3 x4 (ix3 b q n) = x0 (ix2 b q) * x3 (ix2 n (0 : Fin 1)) + x4 (ix1 n) := by
  rw [val_main_v8_apply, val_main_v5_apply, val_main_v3_apply, val_main_v0_apply, val_main_v4_apply, val_main_v2_apply,
    val_main_v1_apply, val_main_v7_apply, val_main_v6_apply]
  have e0 : idx_main_v0 (idx_main_v3 (ix3 b q n)) = ix2 b q :=
    funext fun a => Fin.ext (by match a with | ⟨0, _⟩ => rfl | ⟨1, _⟩ => rfl)
  have e3 : idx_main_v1 (idx_main_v2 (idx_main_v4 (ix3 b q n))) = ix2 n (0 : Fin 1) :=
    funext fun a => Fin.ext (by match a with | ⟨0, _⟩ => exact Nat.div_one _ | ⟨1, _⟩ => rfl)
  have e4 : idx_main_v6 (idx_main_v7 (ix3 b q n)) = ix1 n :=
    funext fun a => Fin.ext (by match a with | ⟨0, _⟩ => rfl)
  rw [e0, e3, e4]
  rfl

/-- The lifted key: entry `n` of the vector built from `x1[b, k]`. -/
theorem v17_apply (x1 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (k : Fin 2048) (n : Fin 64) :
    val_main_v17 (F := Ideal) x1 x3 x4 (ix3 b k n) = x1 (ix2 b k) * x3 (ix2 n (0 : Fin 1)) + x4 (ix1 n) := by
  rw [val_main_v17_apply, val_main_v14_apply, val_main_v12_apply, val_main_v9_apply, val_main_v13_apply, val_main_v11_apply,
    val_main_v10_apply, val_main_v16_apply, val_main_v15_apply]
  have e0 : idx_main_v9 (idx_main_v12 (ix3 b k n)) = ix2 b k :=
    funext fun a => Fin.ext (by match a with | ⟨0, _⟩ => rfl | ⟨1, _⟩ => rfl)
  have e3 : idx_main_v10 (idx_main_v11 (idx_main_v13 (ix3 b k n))) = ix2 n (0 : Fin 1) :=
    funext fun a => Fin.ext (by match a with | ⟨0, _⟩ => exact Nat.div_one _ | ⟨1, _⟩ => rfl)
  have e4 : idx_main_v15 (idx_main_v16 (ix3 b k n)) = ix1 n :=
    funext fun a => Fin.ext (by match a with | ⟨0, _⟩ => rfl)
  rw [e0, e3, e4]
  rfl

/-- The lifted value: entry `n` of the vector built from `x2[b, k]`. -/
theorem v26_apply (x2 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (k : Fin 2048) (n : Fin 64) :
    val_main_v26 (F := Ideal) x2 x3 x4 (ix3 b k n) = x2 (ix2 b k) * x3 (ix2 n (0 : Fin 1)) + x4 (ix1 n) := by
  rw [val_main_v26_apply, val_main_v23_apply, val_main_v21_apply, val_main_v18_apply, val_main_v22_apply, val_main_v20_apply,
    val_main_v19_apply, val_main_v25_apply, val_main_v24_apply]
  have e0 : idx_main_v18 (idx_main_v21 (ix3 b k n)) = ix2 b k :=
    funext fun a => Fin.ext (by match a with | ⟨0, _⟩ => rfl | ⟨1, _⟩ => rfl)
  have e3 : idx_main_v19 (idx_main_v20 (idx_main_v22 (ix3 b k n))) = ix2 n (0 : Fin 1) :=
    funext fun a => Fin.ext (by match a with | ⟨0, _⟩ => exact Nat.div_one _ | ⟨1, _⟩ => rfl)
  have e4 : idx_main_v24 (idx_main_v25 (ix3 b k n)) = ix1 n :=
    funext fun a => Fin.ext (by match a with | ⟨0, _⟩ => rfl)
  rw [e0, e3, e4]
  rfl

/-- The score of query `q` against key `k` in batch row `b`: the dot product of the two lifted scalars. -/
theorem v27_apply (x0 x1 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (q k : Fin 2048) :
    val_main_v27 (F := Ideal) x0 x1 x3 x4 (ix3 b q k) = Cert.Attn.scoresR x0 x1 x3 x4 b q k := by
  rw [val_main_v27_apply]
  show _ = ∑ n : Fin 64, (x0 (ix2 b q) * x3 (ix2 n (0 : Fin 1)) + x4 (ix1 n)) * (x1 (ix2 b k) * x3 (ix2 n (0 : Fin 1)) + x4 (ix1 n))
  refine Finset.sum_congr rfl fun n _ => ?_
  have el : lidx_main_v27 (ix3 b q k) n = ix3 b q n :=
    funext fun a => Fin.ext (by match a with | ⟨0, _⟩ => rfl | ⟨1, _⟩ => rfl | ⟨2, _⟩ => rfl)
  have er : ridx_main_v27 (ix3 b q k) n = ix3 b k n :=
    funext fun a => Fin.ext (by match a with | ⟨0, _⟩ => rfl | ⟨1, _⟩ => rfl | ⟨2, _⟩ => rfl)
  rw [el, er, v8_apply, v17_apply]

/-- The shape fact that names the inserted coordinate of the two row reductions (over the key axis). -/
theorem reduces_keys : S8x2048x2048.Reduces [2] S8x2048 := by decide

/-- Row `(b, q)` with key coordinate `k` inserted is the index `(b, q, k)`. -/
theorem lift_keys (b : Fin 8) (q k : Fin 2048) : reduces_keys.lift (ix2 b q) k = ix3 b q k :=
  funext fun a => Fin.ext (by match a with | ⟨0, _⟩ => rfl | ⟨1, _⟩ => rfl | ⟨2, _⟩ => rfl)

/-- The f32 pattern of `-∞` is the bottom of the extended reals. -/
theorem ofBits_neg_inf : Ideal.ofBits .f32 0xFF800000#32 = (⊥ : EReal) := by simp [Ideal.ofBits, Ideal.ieee]

/-- The reduction over the keys: the maximum of the row of scores, folded from `-∞`. -/
theorem v28_apply (x0 x1 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (q : Fin 2048) :
    val_main_v28 (F := Ideal) x0 x1 x3 x4 (ix2 b q) = Cert.Attn.rowMax (Cert.Attn.scoresR x0 x1 x3 x4 b q) := by
  unfold val_main_v28
  refine (Host.reduce_eq_fold_single _ _ _ reducesTo_S8x2048x2048_S8x2048_d2 reduces_keys h_S_ (ix2 b q)).trans ?_
  show (Finset.univ : Finset (Fin 2048)).fold max (Ideal.ofBits .f32 0xFF800000#32) _ = (Finset.univ : Finset (Fin 2048)).fold max ⊥ _
  rw [ofBits_neg_inf]
  refine Finset.fold_congr fun k _ => ?_
  show val_main_v27 (F := Ideal) x0 x1 x3 x4 (reduces_keys.lift (ix2 b q) k) = _
  rw [lift_keys, v27_apply]

/-- The row maximum as the reference uses it: the maximum of `-∞` and the fold, which is the fold. -/
theorem v30_apply (x0 x1 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (q : Fin 2048) :
    val_main_v30 (F := Ideal) x0 x1 x3 x4 (ix2 b q) = Cert.Attn.rowMax (Cert.Attn.scoresR x0 x1 x3 x4 b q) := by
  rw [val_main_v30_apply, val_main_v29_apply, val_main_cst_0_apply, v28_apply]
  show max (Ideal.ofBits .f32 0xFF800000#32) _ = _
  rw [ofBits_neg_inf]
  exact max_eq_right bot_le

/-- The exponential of a score less its row's maximum. -/
theorem v34_apply (x0 x1 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (q k : Fin 2048) :
    val_main_v34 (F := Ideal) x0 x1 x3 x4 (ix3 b q k)
      = Ideal.exp (Cert.Attn.scoresR x0 x1 x3 x4 b q k - Cert.Attn.rowMax (Cert.Attn.scoresR x0 x1 x3 x4 b q)) := by
  rw [val_main_v34_apply, val_main_v33_apply, val_main_v32_apply, val_main_v31_apply, v27_apply]
  have e : idx_main_v31 (idx_main_v32 (ix3 b q k)) = ix2 b q :=
    funext fun a => Fin.ext (by match a with | ⟨0, _⟩ => rfl | ⟨1, _⟩ => rfl)
  rw [e, v30_apply]
  rfl

/-- The softmax denominator of row `(b, q)`: the sum of those exponentials over the keys (from the literal `0`). -/
theorem v35_apply (x0 x1 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (q : Fin 2048) :
    val_main_v35 (F := Ideal) x0 x1 x3 x4 (ix2 b q)
      = ∑ j : Fin 2048, Ideal.exp (Cert.Attn.scoresR x0 x1 x3 x4 b q j - Cert.Attn.rowMax (Cert.Attn.scoresR x0 x1 x3 x4 b q)) := by
  rw [val_main_v35_apply, val_main_cst_1_apply]
  show Ideal.ofBits .f32 0x00000000#32 + _ = _
  rw [Ideal.ofBits_zero_f32, zero_add]
  refine Finset.sum_congr rfl fun k _ => ?_
  have e : idx_main_v35 (ix2 b q) k = ix3 b q k :=
    funext fun a => Fin.ext (by match a with | ⟨0, _⟩ => rfl | ⟨1, _⟩ => rfl | ⟨2, _⟩ => rfl)
  rw [e, v34_apply]

/-- The attention weight of key `k` for query `q`: the softmax of the row of scores. -/
theorem v38_apply (x0 x1 : (⟨S8x2048, .f32⟩ : BufTy).Contents (Elt Ideal)) (x3 : (⟨S64x1, .f32⟩ : BufTy).Contents (Elt Ideal))
    (x4 : (⟨S64, .f32⟩ : BufTy).Contents (Elt Ideal)) (b : Fin 8) (q k : Fin 2048) :
    val_main_v38 (F := Ideal) x0 x1 x3 x4 (ix3 b q k) = Cert.Attn.softmax (Cert.Attn.scoresR x0 x1 x3 x4 b q) k := by
  rw [val_main_v38_apply, val_main_v37_apply, val_main_v36_apply, v34_apply]
  have e : idx_main_v36 (idx_main_v37 (ix3 b q k)) = ix2 b q :=
    funext fun a => Fin.ext (by match a with | ⟨0, _⟩ => rfl | ⟨1, _⟩ => rfl)
  rw [e, v35_apply]
  rfl

/-- The reference's attention weights are the softmax of its scores, row by row. -/
theorem weights_eq (x0 x1 : (⟨S8x2048, .f32⟩ : BufTy).Contents (Elt Ideal)) (x3 : (⟨S64x1, .f32⟩ : BufTy).Contents (Elt Ideal)) (x4 : (⟨S64, .f32⟩ : BufTy).Contents (Elt Ideal)) :
    val_main_v38 (F := Ideal) x0 x1 x3 x4 = Cert.Attn.weightsR x0 x1 x3 x4 := by
  funext i
  obtain ⟨b, q, k, rfl⟩ : ∃ (b : Fin 8) (q : Fin 2048) (k : Fin 2048), i = ix3 b q k := ⟨i 0, i 1, i 2, eq_ix3 i⟩
  exact v38_apply x0 x1 x3 x4 b q k

/-- The reference's attended values are the weighted sums, over the keys, of the lifted value scalars. -/
theorem attended_eq (x0 x1 x2 : (⟨S8x2048, .f32⟩ : BufTy).Contents (Elt Ideal)) (x3 : (⟨S64x1, .f32⟩ : BufTy).Contents (Elt Ideal)) (x4 : (⟨S64, .f32⟩ : BufTy).Contents (Elt Ideal)) :
    val_main_v39 (F := Ideal) x0 x1 x2 x3 x4 = Cert.Attn.attendedR x0 x1 x2 x3 x4 := by
  funext i
  obtain ⟨b, q, n, rfl⟩ : ∃ (b : Fin 8) (q : Fin 2048) (n : Fin 64), i = ix3 b q n := ⟨i 0, i 1, i 2, eq_ix3 i⟩
  rw [val_main_v39_apply]
  show _ = ∑ k : Fin 2048, Cert.Attn.softmax (Cert.Attn.scoresR x0 x1 x3 x4 b q) k * (x2 (ix2 b k) * x3 (ix2 n (0 : Fin 1)) + x4 (ix1 n))
  refine Finset.sum_congr rfl fun k _ => ?_
  have el : lidx_main_v39 (ix3 b q n) k = ix3 b q k :=
    funext fun a => Fin.ext (by match a with | ⟨0, _⟩ => rfl | ⟨1, _⟩ => rfl | ⟨2, _⟩ => rfl)
  have er : ridx_main_v39 (ix3 b q n) k = ix3 b k n :=
    funext fun a => Fin.ext (by match a with | ⟨0, _⟩ => rfl | ⟨1, _⟩ => rfl | ⟨2, _⟩ => rfl)
  rw [el, er, v38_apply, v26_apply]

end Cert.Attn.Ref

end
-- ==== Proof.KerPay.lean ====
/-
  The two blocks a grid point leaves, read at an index.

  A grid point holds the weight row `W` and the bias row `β` (64 entries each), a block of 512 query scalars `q`, and its
  batch row's 2048 key scalars `k` and 2048 value scalars `v`. It forms the three dot products `W·W`, `W·β`, `β·β`, then the
  `512 × 2048` array of scores

      s(r, j) = (((W·W)·(q_r·k_j) + (W·β)·q_r) + (W·β)·k_j) + β·β,

  each row's maximum `m_r = max_j s(r, j)` (from `-∞`), the exponentials `e(r, j) = exp (s(r, j) - m_r)`, each row's sum
  `z_r = ∑_j e(r, j)`, and the weights `p(r, j) = e(r, j) / z_r`: the first result. The second is, at `(r, n)`,
  `(∑_j p(r, j)·v_j)·W_n + β_n`.

  Every step below reads one operation at one index. A one-axis sum is the sum over that axis's coordinates (`sum64`,
  `sumRow`) and a one-axis maximum the fold of `max` over them (`maxRow`); a broadcast reads its operand at the kept
  coordinates and a shape cast at the same row-major position (`bcCol` … `scW`). Composing them, each named array of the
  kernel (`scoresVec`, `rowmaxVec`, `expVec`, `rowsumVec`, `wtsVec`, `attVec`) at an index is the corresponding expression
  of the shared specification, and so are the two blocks: `E6_apply`, `E5_apply`.
-/
import proofs.«170892_j31679678775913_2_alg».proof.Proof.KernelValue
import proofs.«170892_j31679678775913_2_alg».proof.Proof.Spec

noncomputable section

open scoped BigOperators

namespace Cert.Attn.Ker

open Cert.KernelIdeal Cert.KernelIdeal.Gen Cert.KernelIdeal.ValueP Idealize.ShloMosaic Idealize.ShloMosaic.ValueIdx

/-! ## The three reductions of the kernel, read at an index -/

/-- Inserting coordinate `n` on the summed axis of the one-point index gives `(0, n)`. -/
theorem lift64 (i : S1.Idx) (n : Fin 64) : reduces_S1x64_S1.lift i n = ix2 (0 : Fin 1) n := by
  funext a; apply Fin.ext
  match a with
  | ⟨0, _⟩ => show (i 0).val = 0; have h : (i 0).val < 1 := (i 0).isLt; omega
  | ⟨1, _⟩ => rfl

/-- Inserting coordinate `j` on the reduced axis of row `r` gives `(r, j)`. -/
theorem liftRow (r : Fin 512) (j : Fin 2048) : reduces_S512x2048_S512.lift (ix1 r) j = ix2 r j := by
  funext a; apply Fin.ext
  match a with
  | ⟨0, _⟩ => rfl
  | ⟨1, _⟩ => rfl

/-- A sum over the 64 columns of a one-row array. -/
theorem sum64 (src : FVec Ideal S1x64 .f32) (i : S1.Idx) :
    multiReduction .add [1] S1 src 0x00000000#32 reduces_S1x64_S1 (.inl rfl) rfl i = ∑ n : Fin 64, src (ix2 (0 : Fin 1) n) := by
  refine (Ideal.multiReduction_add_single _ _ _ _ _ _).trans ?_
  refine Finset.sum_congr rfl fun n _ => ?_
  exact congrArg src (lift64 i n)

/-- A row sum of a `512 × 2048` array. -/
theorem sumRow (src : FVec Ideal S512x2048 .f32) (r : Fin 512) :
    multiReduction .add [1] S512 src 0x00000000#32 reduces_S512x2048_S512 (.inl rfl) rfl (ix1 r) = ∑ j : Fin 2048, src (ix2 r j) := by
  refine (Ideal.multiReduction_add_single _ _ _ _ _ _).trans ?_
  refine Finset.sum_congr rfl fun j _ => ?_
  exact congrArg src (liftRow r j)

/-- A row maximum of a `512 × 2048` array, from `-∞`. -/
theorem maxRow (src : FVec Ideal S512x2048 .f32) (r : Fin 512) :
    multiReduction .maximumf [1] S512 src 0xFF800000#32 reduces_S512x2048_S512 (.inl rfl) rfl (ix1 r)
      = (Finset.univ : Finset (Fin 2048)).fold max ⊥ (fun j => src (ix2 r j)) := by
  refine (Ideal.multiReduction_maximumf_single _ _ _ _ _ _).trans ?_
  have hb : FloatOps.ofBits (F := Ideal) .f32 0xFF800000#32 = (⊥ : EReal) := by
    show Ideal.ofBits .f32 0xFF800000#32 = ⊥
    simp [Ideal.ofBits, Ideal.ieee]
  rw [hb]
  refine Finset.fold_congr fun j _ => ?_
  exact congrArg src (liftRow r j)

/-! ## The layout operations of the kernel, read at an index

Each broadcast repeats its operand along the new or unit axes; each shape cast keeps the row-major position. -/

/-- A column `[512, 1]` broadcast across the 2048 keys reads its row. -/
theorem bcCol (v : FVec Ideal S512x1 .f32) (r : Fin 512) (j : Fin 2048) :
    broadcastTo S512x2048 v broadcasts_S512x1_S512x2048 (ix2 r j) = v (ix2 r (0 : Fin 1)) :=
  broadcastTo_apply v _ (ix2 r j) (ix2 r (0 : Fin 1)) (fun a => match a with
    | ⟨0, _⟩ => by show r.val = (if (512 : Nat) = 1 then 0 else r.val); rw [if_neg (by decide)]
    | ⟨1, _⟩ => by show 0 = (if (1 : Nat) = 1 then 0 else j.val); rw [if_pos rfl])

/-- A row `[1, 2048]` broadcast down the 512 queries reads its column. -/
theorem bcRow (v : FVec Ideal S1x2048 .f32) (r : Fin 512) (j : Fin 2048) :
    broadcastTo S512x2048 v broadcasts_S1x2048_S512x2048 (ix2 r j) = v (ix2 (0 : Fin 1) j) :=
  broadcastTo_apply v _ (ix2 r j) (ix2 (0 : Fin 1) j) (fun a => match a with
    | ⟨0, _⟩ => by show 0 = (if (1 : Nat) = 1 then 0 else r.val); rw [if_pos rfl]
    | ⟨1, _⟩ => by show j.val = (if (2048 : Nat) = 1 then 0 else j.val); rw [if_neg (by decide)])

/-- A single entry `[1, 1]` broadcast to `[512, 2048]` reads that entry. -/
theorem bcPt (v : FVec Ideal S1x1 .f32) (r : Fin 512) (j : Fin 2048) :
    broadcastTo S512x2048 v broadcasts_S1x1_S512x2048 (ix2 r j) = v (ix2 (0 : Fin 1) (0 : Fin 1)) :=
  broadcastTo_apply v _ (ix2 r j) (ix2 (0 : Fin 1) (0 : Fin 1)) (fun a => match a with
    | ⟨0, _⟩ => by show 0 = (if (1 : Nat) = 1 then 0 else r.val); rw [if_pos rfl]
    | ⟨1, _⟩ => by show 0 = (if (1 : Nat) = 1 then 0 else j.val); rw [if_pos rfl])

/-- A single entry broadcast to a column `[512, 1]`. -/
theorem bcPtCol (v : FVec Ideal S1x1 .f32) (r : Fin 512) :
    broadcastTo S512x1 v broadcasts_S1x1_S512x1 (ix2 r (0 : Fin 1)) = v (ix2 (0 : Fin 1) (0 : Fin 1)) :=
  broadcastTo_apply v _ (ix2 r (0 : Fin 1)) (ix2 (0 : Fin 1) (0 : Fin 1)) (fun a => match a with
    | ⟨0, _⟩ => by show 0 = (if (1 : Nat) = 1 then 0 else r.val); rw [if_pos rfl]
    | ⟨1, _⟩ => by show 0 = (if (1 : Nat) = 1 then 0 else 0); rw [if_pos rfl])

/-- A single entry broadcast to a row `[1, 2048]`. -/
theorem bcPtRow (v : FVec Ideal S1x1 .f32) (j : Fin 2048) :
    broadcastTo S1x2048 v broadcasts_S1x1_S1x2048 (ix2 (0 : Fin 1) j) = v (ix2 (0 : Fin 1) (0 : Fin 1)) :=
  broadcastTo_apply v _ (ix2 (0 : Fin 1) j) (ix2 (0 : Fin 1) (0 : Fin 1)) (fun a => match a with
    | ⟨0, _⟩ => by show 0 = (if (1 : Nat) = 1 then 0 else 0); rw [if_pos rfl]
    | ⟨1, _⟩ => by show 0 = (if (1 : Nat) = 1 then 0 else j.val); rw [if_pos rfl])

/-- The one-point vector as a `[1, 1]` array. -/
theorem scPt (v : FVec Ideal S1 .f32) :
    shapeCast S1x1 v shapeCasts_S1_S1x1 (ix2 (0 : Fin 1) (0 : Fin 1)) = v (ix1 (0 : Fin 1)) :=
  shapeCast_apply v _ (ix2 (0 : Fin 1) (0 : Fin 1)) (ix1 (0 : Fin 1))
    (by rw [Shape.rowMajor_val_one, Shape.rowMajor_val_two]; show 0 = 0 * 1 + 0; omega)

/-- A vector of 512 entries as a column `[512, 1]`. -/
theorem scCol (v : FVec Ideal S512 .f32) (r : Fin 512) :
    shapeCast S512x1 v shapeCasts_S512_S512x1 (ix2 r (0 : Fin 1)) = v (ix1 r) :=
  shapeCast_apply v _ (ix2 r (0 : Fin 1)) (ix1 r)
    (by rw [Shape.rowMajor_val_one, Shape.rowMajor_val_two]; show r.val = r.val * 1 + 0; omega)

/-- The query block `[1, 512, 1]` as a column `[512, 1]`. -/
theorem scQ (P1 : FVec Ideal S1x512x1 .f32) (r : Fin 512) :
    shapeCast S512x1 P1 shapeCasts_S1x512x1_S512x1 (ix2 r (0 : Fin 1)) = P1 (ix3 (0 : Fin 1) r (0 : Fin 1)) :=
  shapeCast_apply P1 _ (ix2 r (0 : Fin 1)) (ix3 (0 : Fin 1) r (0 : Fin 1))
    (by rw [Shape.rowMajor_val_three, Shape.rowMajor_val_two]; show (0 * 512 + r.val) * 1 + 0 = r.val * 1 + 0; omega)

/-- A key or value row `[1, 1, 2048]` as a row `[1, 2048]`. -/
theorem scK (P2 : FVec Ideal S1x1x2048 .f32) (j : Fin 2048) :
    shapeCast S1x2048 P2 shapeCasts_S1x1x2048_S1x2048 (ix2 (0 : Fin 1) j) = P2 (ix3 (0 : Fin 1) (0 : Fin 1) j) :=
  shapeCast_apply P2 _ (ix2 (0 : Fin 1) j) (ix3 (0 : Fin 1) (0 : Fin 1) j)
    (by rw [Shape.rowMajor_val_three, Shape.rowMajor_val_two]; show (0 * 1 + 0) * 2048 + j.val = 0 * 2048 + j.val; omega)

/-- The weight or bias row `[1, 64]` recast to its own shape. -/
theorem scW (A : FVec Ideal S1x64 .f32) (n : Fin 64) :
    shapeCast S1x64 A shapeCasts_S1x64_S1x64 (ix2 (0 : Fin 1) n) = A (ix2 (0 : Fin 1) n) :=
  shapeCast_apply A _ (ix2 (0 : Fin 1) n) (ix2 (0 : Fin 1) n) rfl

/-! ## The kernel's vectors, named, and read at an index -/

/-- The exponential of a vector at an index is the exponential of the element. -/
theorem exp_apply {s : Shape} {φ : FTy} (a : FVec Ideal s φ) (i : s.Idx) : exp a i = Ideal.exp (a i) := rfl

/-- The dot product of two rows of length 64, as the kernel spells it: the one-axis sum of the pointwise product. -/
def dotV (A B : Vec Ideal S1x64 .f32) : FVec Ideal S1 .f32 :=
  multiReduction .add [1] S1 (mulf (shapeCast S1x64 A shapeCasts_S1x64_S1x64) (shapeCast S1x64 B shapeCasts_S1x64_S1x64)) 0x00000000#32 reduces_S1x64_S1 (.inl rfl) rfl

theorem dotV_apply (A B : Vec Ideal S1x64 .f32) (i : S1.Idx) :
    dotV A B i = Cert.Attn.dot64 (fun n => A (ix2 (0 : Fin 1) n)) (fun n => B (ix2 (0 : Fin 1) n)) := by
  unfold dotV
  refine (sum64 _ i).trans ?_
  unfold Cert.Attn.dot64
  refine Finset.sum_congr rfl fun n _ => ?_
  show shapeCast S1x64 A shapeCasts_S1x64_S1x64 (ix2 (0 : Fin 1) n) * shapeCast S1x64 B shapeCasts_S1x64_S1x64 (ix2 (0 : Fin 1) n) = _
  rw [scW, scW]

/-- The `512 × 2048` array of scores of the block's queries against every key: the four terms of the expanded
    product, each broadcast to the full array, added in the order `((a + b) + c) + d`. -/
def scoresVec (P0 : Vec Ideal S1x64 .f32) (P1 : Vec Ideal S1x512x1 .f32) (P2 : Vec Ideal S1x1x2048 .f32) (P3 : Vec Ideal S1x64 .f32) : FVec Ideal S512x2048 .f32 :=
  addf (addf (addf (mulf (broadcastTo S512x2048 (shapeCast S1x1 (dotV P0 P0) shapeCasts_S1_S1x1) broadcasts_S1x1_S512x2048) (mulf (broadcastTo S512x2048 (shapeCast S512x1 P1 shapeCasts_S1x512x1_S512x1) broadcasts_S512x1_S512x2048) (broadcastTo S512x2048 (shapeCast S1x2048 P2 shapeCasts_S1x1x2048_S1x2048) broadcasts_S1x2048_S512x2048))) (broadcastTo S512x2048 (mulf (broadcastTo S512x1 (shapeCast S1x1 (dotV P0 P3) shapeCasts_S1_S1x1) broadcasts_S1x1_S512x1) (shapeCast S512x1 P1 shapeCasts_S1x512x1_S512x1)) broadcasts_S512x1_S512x2048)) (broadcastTo S512x2048 (mulf (broadcastTo S1x2048 (shapeCast S1x1 (dotV P0 P3) shapeCasts_S1_S1x1) broadcasts_S1x1_S1x2048) (shapeCast S1x2048 P2 shapeCasts_S1x1x2048_S1x2048)) broadcasts_S1x2048_S512x2048)) (broadcastTo S512x2048 (shapeCast S1x1 (dotV P3 P3) shapeCasts_S1_S1x1) broadcasts_S1x1_S512x2048)

/-- The row of scores of query `r` of the block against every key, in the kernel's spelling. -/
abbrev rowScores (P0 : Vec Ideal S1x64 .f32) (P1 : Vec Ideal S1x512x1 .f32) (P2 : Vec Ideal S1x1x2048 .f32) (P3 : Vec Ideal S1x64 .f32) (r : Fin 512) : Fin 2048 → EReal :=
  fun j => Cert.Attn.scoreK (fun n => P0 (ix2 (0 : Fin 1) n)) (fun n => P3 (ix2 (0 : Fin 1) n)) (P1 (ix3 (0 : Fin 1) r (0 : Fin 1))) (P2 (ix3 (0 : Fin 1) (0 : Fin 1) j))

theorem scoresVec_apply (P0 : Vec Ideal S1x64 .f32) (P1 : Vec Ideal S1x512x1 .f32) (P2 : Vec Ideal S1x1x2048 .f32) (P3 : Vec Ideal S1x64 .f32) (r : Fin 512) (j : Fin 2048) :
    scoresVec P0 P1 P2 P3 (ix2 r j) = rowScores P0 P1 P2 P3 r j := by
  unfold scoresVec
  simp only [addf_apply, mulf_apply, bcPt, bcCol, bcRow, bcPtCol, bcPtRow, scPt, scQ, scK, dotV_apply]
  rfl

/-- The maximum of each row of scores. -/
def rowmaxVec (P0 : Vec Ideal S1x64 .f32) (P1 : Vec Ideal S1x512x1 .f32) (P2 : Vec Ideal S1x1x2048 .f32) (P3 : Vec Ideal S1x64 .f32) : FVec Ideal S512 .f32 :=
  multiReduction .maximumf [1] S512 (scoresVec P0 P1 P2 P3) 0xFF800000#32 reduces_S512x2048_S512 (.inl rfl) rfl

theorem rowmaxVec_apply (P0 : Vec Ideal S1x64 .f32) (P1 : Vec Ideal S1x512x1 .f32) (P2 : Vec Ideal S1x1x2048 .f32) (P3 : Vec Ideal S1x64 .f32) (r : Fin 512) :
    rowmaxVec P0 P1 P2 P3 (ix1 r) = Cert.Attn.rowMax (rowScores P0 P1 P2 P3 r) := by
  unfold rowmaxVec
  refine (maxRow _ r).trans ?_
  unfold Cert.Attn.rowMax
  exact Finset.fold_congr fun j _ => scoresVec_apply P0 P1 P2 P3 r j

/-- The exponentials of the scores, each row shifted by its maximum. -/
def expVec (P0 : Vec Ideal S1x64 .f32) (P1 : Vec Ideal S1x512x1 .f32) (P2 : Vec Ideal S1x1x2048 .f32) (P3 : Vec Ideal S1x64 .f32) : FVec Ideal S512x2048 .f32 :=
  exp (subf (scoresVec P0 P1 P2 P3) (broadcastTo S512x2048 (shapeCast S512x1 (rowmaxVec P0 P1 P2 P3) shapeCasts_S512_S512x1) broadcasts_S512x1_S512x2048))

theorem expVec_apply (P0 : Vec Ideal S1x64 .f32) (P1 : Vec Ideal S1x512x1 .f32) (P2 : Vec Ideal S1x1x2048 .f32) (P3 : Vec Ideal S1x64 .f32) (r : Fin 512) (j : Fin 2048) :
    expVec P0 P1 P2 P3 (ix2 r j)
      = Ideal.exp (rowScores P0 P1 P2 P3 r j - Cert.Attn.rowMax (rowScores P0 P1 P2 P3 r)) := by
  unfold expVec
  rw [exp_apply, subf_apply, bcCol, scCol, scoresVec_apply, rowmaxVec_apply]

/-- The sum of each row of exponentials. -/
def rowsumVec (P0 : Vec Ideal S1x64 .f32) (P1 : Vec Ideal S1x512x1 .f32) (P2 : Vec Ideal S1x1x2048 .f32) (P3 : Vec Ideal S1x64 .f32) : FVec Ideal S512 .f32 :=
  multiReduction .add [1] S512 (expVec P0 P1 P2 P3) 0x00000000#32 reduces_S512x2048_S512 (.inl rfl) rfl

theorem rowsumVec_apply (P0 : Vec Ideal S1x64 .f32) (P1 : Vec Ideal S1x512x1 .f32) (P2 : Vec Ideal S1x1x2048 .f32) (P3 : Vec Ideal S1x64 .f32) (r : Fin 512) :
    rowsumVec P0 P1 P2 P3 (ix1 r)
      = ∑ j : Fin 2048, Ideal.exp (rowScores P0 P1 P2 P3 r j - Cert.Attn.rowMax (rowScores P0 P1 P2 P3 r)) := by
  unfold rowsumVec
  refine (sumRow _ r).trans ?_
  exact Finset.sum_congr rfl fun j _ => expVec_apply P0 P1 P2 P3 r j

/-- The attention weights of the block: each exponential over its row's sum. -/
def wtsVec (P0 : Vec Ideal S1x64 .f32) (P1 : Vec Ideal S1x512x1 .f32) (P2 : Vec Ideal S1x1x2048 .f32) (P3 : Vec Ideal S1x64 .f32) : FVec Ideal S512x2048 .f32 :=
  divf (expVec P0 P1 P2 P3) (broadcastTo S512x2048 (shapeCast S512x1 (rowsumVec P0 P1 P2 P3) shapeCasts_S512_S512x1) broadcasts_S512x1_S512x2048)

theorem wtsVec_apply (P0 : Vec Ideal S1x64 .f32) (P1 : Vec Ideal S1x512x1 .f32) (P2 : Vec Ideal S1x1x2048 .f32) (P3 : Vec Ideal S1x64 .f32) (r : Fin 512) (j : Fin 2048) :
    wtsVec P0 P1 P2 P3 (ix2 r j) = Cert.Attn.softmax (rowScores P0 P1 P2 P3 r) j := by
  unfold wtsVec
  rw [divf_apply, bcCol, scCol, expVec_apply, rowsumVec_apply]
  rfl

/-! ## The two blocks a grid point leaves, at an index -/

/-- THE WEIGHTS BLOCK at `(0, r, k)`: the softmax weight of key `k` in the row of scores of query `r`. -/
theorem E6_apply (P0 : Vec Ideal S1x64 .f32) (P1 : Vec Ideal S1x512x1 .f32) (P2 : Vec Ideal S1x1x2048 .f32) (P3 : Vec Ideal S1x64 .f32) (r : Fin 512) (k : Fin 2048) :
    E6 (F := Ideal) P0 P1 P2 P3 (ix3 (0 : Fin 1) r k) = Cert.Attn.softmax (rowScores P0 P1 P2 P3 r) k := by
  have hq : ix6_1 (ix3 (0 : Fin 1) r k) = ix3 (0 : Fin 1) r (0 : Fin 1) := by
    funext a; match a with | ⟨0, _⟩ => rfl | ⟨1, _⟩ => rfl | ⟨2, _⟩ => rfl
  have hk : ix6_2 (ix3 (0 : Fin 1) r k) = ix3 (0 : Fin 1) (0 : Fin 1) k := by
    funext a; match a with | ⟨0, _⟩ => rfl | ⟨1, _⟩ => rfl | ⟨2, _⟩ => rfl
  have hq' : ix6_4 (ix3 (0 : Fin 1) r k) = ix3 (0 : Fin 1) r (0 : Fin 1) := by
    funext a; match a with | ⟨0, _⟩ => rfl | ⟨1, _⟩ => rfl | ⟨2, _⟩ => rfl
  have hk' : ix6_6 (ix3 (0 : Fin 1) r k) = ix3 (0 : Fin 1) (0 : Fin 1) k := by
    funext a; match a with | ⟨0, _⟩ => rfl | ⟨1, _⟩ => rfl | ⟨2, _⟩ => rfl
  have hm : ix6_8 (ix3 (0 : Fin 1) r k) = ix1 r := by
    funext a; match a with | ⟨0, _⟩ => rfl
  have hs : ix6_9 (ix3 (0 : Fin 1) r k) = ix1 r := by
    funext a; match a with | ⟨0, _⟩ => rfl
  show Ideal.div (Ideal.exp ((dotV P0 P0 (ix6_0 (ix3 (0 : Fin 1) r k)) * (P1 (ix6_1 (ix3 (0 : Fin 1) r k)) * P2 (ix6_2 (ix3 (0 : Fin 1) r k)))
        + dotV P0 P3 (ix6_3 (ix3 (0 : Fin 1) r k)) * P1 (ix6_4 (ix3 (0 : Fin 1) r k)) + dotV P0 P3 (ix6_5 (ix3 (0 : Fin 1) r k)) * P2 (ix6_6 (ix3 (0 : Fin 1) r k))
        + dotV P3 P3 (ix6_7 (ix3 (0 : Fin 1) r k))) - rowmaxVec P0 P1 P2 P3 (ix6_8 (ix3 (0 : Fin 1) r k))))
      (rowsumVec P0 P1 P2 P3 (ix6_9 (ix3 (0 : Fin 1) r k))) = _
  rw [hq, hk, hq', hk', hm, hs, dotV_apply, dotV_apply, dotV_apply, rowmaxVec_apply, rowsumVec_apply]
  rfl

/-- The weighted sum of the value scalars, row by row. -/
def attVec (P0 : Vec Ideal S1x64 .f32) (P1 : Vec Ideal S1x512x1 .f32) (P2 : Vec Ideal S1x1x2048 .f32) (P3 : Vec Ideal S1x64 .f32) (P4 : Vec Ideal S1x1x2048 .f32) : FVec Ideal S512 .f32 :=
  multiReduction .add [1] S512 (mulf (wtsVec P0 P1 P2 P3) (broadcastTo S512x2048 (shapeCast S1x2048 P4 shapeCasts_S1x1x2048_S1x2048) broadcasts_S1x2048_S512x2048)) 0x00000000#32 reduces_S512x2048_S512 (.inl rfl) rfl

theorem attVec_apply (P0 : Vec Ideal S1x64 .f32) (P1 : Vec Ideal S1x512x1 .f32) (P2 : Vec Ideal S1x1x2048 .f32) (P3 : Vec Ideal S1x64 .f32) (P4 : Vec Ideal S1x1x2048 .f32) (r : Fin 512) :
    attVec P0 P1 P2 P3 P4 (ix1 r)
      = ∑ k : Fin 2048, Cert.Attn.softmax (rowScores P0 P1 P2 P3 r) k * P4 (ix3 (0 : Fin 1) (0 : Fin 1) k) := by
  unfold attVec
  refine (sumRow _ r).trans ?_
  refine Finset.sum_congr rfl fun k _ => ?_
  rw [mulf_apply, wtsVec_apply, bcRow, scK]

/-- THE ATTENDED BLOCK at `(0, r, n)`: the weighted mean of the value scalars under the weights of query `r`, lifted
    by `x ↦ x·Wₙ + βₙ`. -/
theorem E5_apply (P0 : Vec Ideal S1x64 .f32) (P1 : Vec Ideal S1x512x1 .f32) (P2 : Vec Ideal S1x1x2048 .f32) (P3 : Vec Ideal S1x64 .f32) (P4 : Vec Ideal S1x1x2048 .f32) (r : Fin 512) (n : Fin 64) :
    E5 (F := Ideal) P0 P1 P2 P3 P4 (ix3 (0 : Fin 1) r n)
      = Cert.Attn.attK (fun n => P0 (ix2 (0 : Fin 1) n)) (fun n => P3 (ix2 (0 : Fin 1) n)) (Cert.Attn.softmax (rowScores P0 P1 P2 P3 r)) (fun k => P4 (ix3 (0 : Fin 1) (0 : Fin 1) k)) n := by
  have hr : ix5_0 (ix3 (0 : Fin 1) r n) = ix1 r := by
    funext a; match a with | ⟨0, _⟩ => rfl
  have hw : ix5_1 (ix3 (0 : Fin 1) r n) = ix2 (0 : Fin 1) n := by
    funext a; match a with | ⟨0, _⟩ => rfl | ⟨1, _⟩ => rfl
  have hb : ix5_2 (ix3 (0 : Fin 1) r n) = ix2 (0 : Fin 1) n := by
    funext a; match a with | ⟨0, _⟩ => rfl | ⟨1, _⟩ => rfl
  show attVec P0 P1 P2 P3 P4 (ix5_0 (ix3 (0 : Fin 1) r n)) * P0 (ix5_1 (ix3 (0 : Fin 1) r n)) + P3 (ix5_2 (ix3 (0 : Fin 1) r n)) = _
  rw [hr, hw, hb, attVec_apply]
  rfl

end Cert.Attn.Ker

end
-- ==== Proof.KerArr.lean ====
/-
  From blocks to arrays: what the kernel's two result arrays hold after the run, as functions of the five argument arrays.

  The grid has 8 × 4 points, one per (batch row `b`, tile of 512 queries). At a point the body sees the query block (rows
  `512·tile … 512·tile + 511` of batch row `b`, as a column), the key row and the value row of batch row `b`, and the weight and bias
  rows (the same at every point); it leaves a `512 × 2048` block of attention weights and a `512 × 64` block of attended values,
  each written back to rows `512·tile …` of batch row `b` of its array. Before the region the arguments are only re-laid
  (`[8,2048] → [8,2048,1]`, `[8,2048] → [8,1,2048]`, `[64,1] → [64] → [1,64]`, `[64] → [1,64]`), which moves no element.

  So: each input block, read at an element, is an element of an argument array (`iblk0_apply` … `iblk4_apply`); what a point
  writes back is the corresponding block of `weightsK` / `attendedK` of the argument arrays (`flushed6_eq`, `flushed5_eq`, over the
  block's value at an index); the 32 blocks tile each array (`cover6`, `cover5`: row `q` lies in tile `q / 512`); hence the arrays
  end at `weightsK` and `attendedK` of the arguments (`final6`, `final5`, `run`).
-/
import proofs.«170892_j31679678775913_2_alg».proof.Proof.KernelValue
import proofs.«170892_j31679678775913_2_alg».proof.Proof.Spec
import proofs.«170892_j31679678775913_2_alg».proof.Proof.KerPay
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Attn.Arr

open Cert.KernelIdeal Cert.KernelIdeal.Gen Cert.KernelIdeal.ValueP

variable (m : (ℓ : Loc nD τ sig) → Buf (Elt Ideal) ℓ) (ρ : Dev nD → PrngReg)

/-! ## The arrays the region finds: reshapes of the arguments -/

theorem V_v0 (c : Dev nD) : (V m c main_v0 : S8x2048x1.Idx → EReal)
    = shapeCast S8x2048x1 (m ((c : Thread nD τ).loc main_arg0)) shapeCasts_S8x2048_S8x2048x1 := by
  dsimp only [Gen.V, Gen.hostOps0]; after_results; rfl

theorem V_v1 (c : Dev nD) : (V m c main_v1 : S8x1x2048.Idx → EReal)
    = shapeCast S8x1x2048 (m ((c : Thread nD τ).loc main_arg1)) shapeCasts_S8x2048_S8x1x2048 := by
  dsimp only [Gen.V, Gen.hostOps0]; after_results; rfl

theorem V_v2 (c : Dev nD) : (V m c main_v2 : S8x1x2048.Idx → EReal)
    = shapeCast S8x1x2048 (m ((c : Thread nD τ).loc main_arg2)) shapeCasts_S8x2048_S8x1x2048 := by
  dsimp only [Gen.V, Gen.hostOps0]; after_results; rfl

theorem V_v4 (c : Dev nD) : (V m c main_v4 : S1x64.Idx → EReal)
    = shapeCast S1x64 (shapeCast S64 (m ((c : Thread nD τ).loc main_arg3)) shapeCasts_S64x1_S64) shapeCasts_S64_S1x64 := by
  dsimp only [Gen.V, Gen.hostOps0]; after_results; rfl

theorem V_v5 (c : Dev nD) : (V m c main_v5 : S1x64.Idx → EReal)
    = shapeCast S1x64 (m ((c : Thread nD τ).loc main_arg4)) shapeCasts_S64_S1x64 := by
  dsimp only [Gen.V, Gen.hostOps0]; after_results; rfl

theorem V_v0_apply (c : Dev nD) (b : Fin 8) (q : Fin 2048) :
    (V m c main_v0 : S8x2048x1.Idx → EReal) (ix3 b q (0 : Fin 1)) = (m ((c : Thread nD τ).loc main_arg0) : S8x2048.Idx → EReal) (ix2 b q) := by
  rw [V_v0]
  refine shapeCast_apply _ _ (ix3 b q (0 : Fin 1)) (ix2 b q) ?_
  rw [Shape.rowMajor_val_two, Shape.rowMajor_val_three]
  show b.val * 2048 + q.val = (b.val * 2048 + q.val) * 1 + 0
  omega

theorem V_v1_apply (c : Dev nD) (b : Fin 8) (k : Fin 2048) :
    (V m c main_v1 : S8x1x2048.Idx → EReal) (ix3 b (0 : Fin 1) k) = (m ((c : Thread nD τ).loc main_arg1) : S8x2048.Idx → EReal) (ix2 b k) := by
  rw [V_v1]
  refine shapeCast_apply _ _ (ix3 b (0 : Fin 1) k) (ix2 b k) ?_
  rw [Shape.rowMajor_val_two, Shape.rowMajor_val_three]
  show b.val * 2048 + k.val = (b.val * 1 + 0) * 2048 + k.val
  omega

theorem V_v2_apply (c : Dev nD) (b : Fin 8) (k : Fin 2048) :
    (V m c main_v2 : S8x1x2048.Idx → EReal) (ix3 b (0 : Fin 1) k) = (m ((c : Thread nD τ).loc main_arg2) : S8x2048.Idx → EReal) (ix2 b k) := by
  rw [V_v2]
  refine shapeCast_apply _ _ (ix3 b (0 : Fin 1) k) (ix2 b k) ?_
  rw [Shape.rowMajor_val_two, Shape.rowMajor_val_three]
  show b.val * 2048 + k.val = (b.val * 1 + 0) * 2048 + k.val
  omega

theorem V_v4_apply (c : Dev nD) (n : Fin 64) :
    (V m c main_v4 : S1x64.Idx → EReal) (ix2 (0 : Fin 1) n) = (m ((c : Thread nD τ).loc main_arg3) : S64x1.Idx → EReal) (ix2 n (0 : Fin 1)) := by
  rw [V_v4]
  refine (shapeCast_apply _ _ (ix2 (0 : Fin 1) n) (ix1 n) ?_).trans (shapeCast_apply _ _ (ix1 n) (ix2 n (0 : Fin 1)) ?_)
  · rw [Shape.rowMajor_val_one, Shape.rowMajor_val_two]
    show n.val = 0 * 64 + n.val
    omega
  · rw [Shape.rowMajor_val_two, Shape.rowMajor_val_one]
    show n.val * 1 + 0 = n.val
    omega

theorem V_v5_apply (c : Dev nD) (n : Fin 64) :
    (V m c main_v5 : S1x64.Idx → EReal) (ix2 (0 : Fin 1) n) = (m ((c : Thread nD τ).loc main_arg4) : S64.Idx → EReal) (ix1 n) := by
  rw [V_v5]
  refine shapeCast_apply _ _ (ix2 (0 : Fin 1) n) (ix1 n) ?_
  rw [Shape.rowMajor_val_one, Shape.rowMajor_val_two]
  show n.val = 0 * 64 + n.val
  omega

/-! ## The input windows' blocks at a grid point, element by element

A block's element sits in its array at block index × block size + the coordinate inside the block, axis by axis. -/

/-- The query block of point `t`: rows `512·(block row) + r` of batch row `b`. -/
theorem iblk0_apply (c : Dev nD) (t : Fin cfg0.N) (r : Fin 512) (b : Fin 8) (q : Fin 2048)
    (hb : win0_0.index t (0 : Fin 3) = b.val) (hq : win0_0.index t (1 : Fin 3) * 512 + r.val = q.val) (h2 : win0_0.index t (2 : Fin 3) = 0) :
    (iblk m c 0 t : Vec Ideal S1x512x1 .f32) (ix3 (0 : Fin 1) r (0 : Fin 1)) = (m ((c : Thread nD τ).loc main_arg0) : S8x2048.Idx → EReal) (ix2 b q) := by
  rw [← V_v0_apply m c b q]
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = b.val; omega
  | ⟨1, _⟩ => show win0_0.index t (1 : Fin 3) * 512 + 1 * r.val = q.val; omega
  | ⟨2, _⟩ => show win0_0.index t (2 : Fin 3) * 1 + 1 * 0 = 0; omega

/-- The key row of point `t`: batch row `b` of the keys. -/
theorem iblk1_apply (c : Dev nD) (t : Fin cfg0.N) (k : Fin 2048) (b : Fin 8)
    (hb : win0_1.index t (0 : Fin 3) = b.val) (h1 : win0_1.index t (1 : Fin 3) = 0) (h2 : win0_1.index t (2 : Fin 3) = 0) :
    (iblk m c 1 t : Vec Ideal S1x1x2048 .f32) (ix3 (0 : Fin 1) (0 : Fin 1) k) = (m ((c : Thread nD τ).loc main_arg1) : S8x2048.Idx → EReal) (ix2 b k) := by
  rw [← V_v1_apply m c b k]
  unfold iblk
  rw [View.read_apply]
  show V m c main_v1 _ = V m c main_v1 _
  refine congrArg (V m c main_v1) (funext fun a => Fin.ext ?_)
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 2048 + 1 * k.val = k.val; omega

/-- The value row of point `t`: batch row `b` of the values. -/
theorem iblk2_apply (c : Dev nD) (t : Fin cfg0.N) (k : Fin 2048) (b : Fin 8)
    (hb : win0_2.index t (0 : Fin 3) = b.val) (h1 : win0_2.index t (1 : Fin 3) = 0) (h2 : win0_2.index t (2 : Fin 3) = 0) :
    (iblk m c 2 t : Vec Ideal S1x1x2048 .f32) (ix3 (0 : Fin 1) (0 : Fin 1) k) = (m ((c : Thread nD τ).loc main_arg2) : S8x2048.Idx → EReal) (ix2 b k) := by
  rw [← V_v2_apply m c b k]
  unfold iblk
  rw [View.read_apply]
  show V m c main_v2 _ = V m c main_v2 _
  refine congrArg (V m c main_v2) (funext fun a => Fin.ext ?_)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 2048 + 1 * k.val = k.val; omega

/-- The weight row, the same at every point. -/
theorem iblk3_apply (c : Dev nD) (t : Fin cfg0.N) (n : Fin 64)
    (h0 : win0_3.index t (0 : Fin 2) = 0) (h1 : win0_3.index t (1 : Fin 2) = 0) :
    (iblk m c 3 t : Vec Ideal S1x64 .f32) (ix2 (0 : Fin 1) n) = (m ((c : Thread nD τ).loc main_arg3) : S64x1.Idx → EReal) (ix2 n (0 : Fin 1)) := by
  rw [← V_v4_apply m c n]
  unfold iblk
  rw [View.read_apply]
  show V m c main_v4 _ = V m c main_v4 _
  refine congrArg (V m c main_v4) (funext fun a => Fin.ext ?_)
  match a with
  | ⟨0, _⟩ => show win0_3.index t (0 : Fin 2) * 1 + 1 * 0 = 0; omega
  | ⟨1, _⟩ => show win0_3.index t (1 : Fin 2) * 64 + 1 * n.val = n.val; omega

/-- The bias row, the same at every point. -/
theorem iblk4_apply (c : Dev nD) (t : Fin cfg0.N) (n : Fin 64)
    (h0 : win0_4.index t (0 : Fin 2) = 0) (h1 : win0_4.index t (1 : Fin 2) = 0) :
    (iblk m c 4 t : Vec Ideal S1x64 .f32) (ix2 (0 : Fin 1) n) = (m ((c : Thread nD τ).loc main_arg4) : S64.Idx → EReal) (ix1 n) := by
  rw [← V_v5_apply m c n]
  unfold iblk
  rw [View.read_apply]
  show V m c main_v5 _ = V m c main_v5 _
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 64 + 1 * n.val = n.val; omega

/-! ## The index maps over the grid, and what each point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: the query block and both output blocks move together over
    (batch row, query tile); the key and value rows follow the batch row; the weight and bias rows stay put. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = win0_6.index t (0 : Fin 3) ∧ win0_5.index t (1 : Fin 3) = win0_6.index t (1 : Fin 3) ∧ win0_5.index t (2 : Fin 3) = 0
    ∧ win0_6.index t (0 : Fin 3) ≤ 7 ∧ win0_6.index t (1 : Fin 3) ≤ 3 ∧ win0_6.index t (2 : Fin 3) = 0 :=
  (by decide +kernel : ∀ t : Fin grid0.N, _)

/-- Every (batch row, query tile) is some point's. -/
theorem idx_onto : ∀ (q0 : Fin 8) (q1 : Fin 4), ∃ t : Fin cfg0.N, win0_6.index t (0 : Fin 3) = q0.val ∧ win0_6.index t (1 : Fin 3) = q1.val :=
  (by decide +kernel : ∀ (q0 : Fin 8) (q1 : Fin 4), ∃ t : Fin grid0.N, win0_6.index t (0 : Fin 3) = q0.val ∧ win0_6.index t (1 : Fin 3) = q1.val)

/-- WHAT POINT `t` WRITES BACK to the weights array is block `t` of the attention weights of the argument arrays. -/
theorem flushed6_eq (c : Dev nD) (t : Fin cfg0.N) :
    (dats m 0 c).flushed 6 t = ((cfg0.win 6).blk t).view.read (Elt Ideal)
      (Cert.Attn.weightsK (m ((c : Thread nD τ).loc main_arg0)) (m ((c : Thread nD τ).loc main_arg1)) (m ((c : Thread nD τ).loc main_arg3)) (m ((c : Thread nD τ).loc main_arg4))) := by
  rw [flushed6]
  obtain ⟨e00, e01, e02, e10, e11, e12, e20, e21, e22, e30, e31, e40, e41, e50, e51, e52, e60, e61, e62⟩ := idx_facts t
  funext y
  obtain ⟨u, r, k, rfl⟩ : ∃ (u : Fin 1) (r : Fin 512) (k : Fin 2048), y = ix3 u r k := ⟨y 0, y 1, y 2, eq_ix3 y⟩
  obtain rfl : u = 0 := Subsingleton.elim _ _
  have hb : win0_6.index t (0 : Fin 3) < 8 := by omega
  have hq : win0_6.index t (1 : Fin 3) * 512 + r.val < 2048 := by have := r.isLt; omega
  have hi : ((cfg0.win 6).blk t).view.emb (ix3 (0 : Fin 1) r k)
      = ix3 (⟨win0_6.index t (0 : Fin 3), hb⟩ : Fin 8) (⟨win0_6.index t (1 : Fin 3) * 512 + r.val, hq⟩ : Fin 2048) k := by
    funext a; apply Fin.ext
    match a with
    | ⟨0, _⟩ => show win0_6.index t (0 : Fin 3) * 1 + 1 * 0 = win0_6.index t (0 : Fin 3); omega
    | ⟨1, _⟩ => show win0_6.index t (1 : Fin 3) * 512 + 1 * r.val = win0_6.index t (1 : Fin 3) * 512 + r.val; omega
    | ⟨2, _⟩ => show win0_6.index t (2 : Fin 3) * 2048 + 1 * k.val = k.val; omega
  show out0_6 (iblk m c 0 t) (iblk m c 1 t) (iblk m c 2 t) (iblk m c 3 t) (iblk m c 4 t) (ix3 (0 : Fin 1) r k)
    = Cert.Attn.weightsK _ _ _ _ (((cfg0.win 6).blk t).view.emb (ix3 (0 : Fin 1) r k))
  rw [hi]
  unfold out0_6
  rw [canon6_eq]
  simp only [View.ld_unit_zero (S := S1x64) hz2, View.ld_unit_zero (S := S1x512x1) hz3, View.ld_unit_zero (S := S1x1x2048) hz3]
  refine (Cert.Attn.Ker.E6_apply _ _ _ _ r k).trans ?_
  show Cert.Attn.softmax _ k = Cert.Attn.softmax (Cert.Attn.scoresK _ _ _ _ ⟨win0_6.index t (0 : Fin 3), hb⟩ ⟨win0_6.index t (1 : Fin 3) * 512 + r.val, hq⟩) k
  refine congrArg (fun s => Cert.Attn.softmax s k) (funext fun j => ?_)
  show Cert.Attn.scoreK (fun n => (iblk m c 3 t : Vec Ideal S1x64 .f32) (ix2 (0 : Fin 1) n)) (fun n => (iblk m c 4 t : Vec Ideal S1x64 .f32) (ix2 (0 : Fin 1) n))
      ((iblk m c 0 t : Vec Ideal S1x512x1 .f32) (ix3 (0 : Fin 1) r (0 : Fin 1))) ((iblk m c 1 t : Vec Ideal S1x1x2048 .f32) (ix3 (0 : Fin 1) (0 : Fin 1) j))
    = Cert.Attn.scoreK _ _ _ _
  rw [iblk0_apply m c t r ⟨win0_6.index t (0 : Fin 3), hb⟩ ⟨win0_6.index t (1 : Fin 3) * 512 + r.val, hq⟩ e00 (by show win0_0.index t (1 : Fin 3) * 512 + r.val = win0_6.index t (1 : Fin 3) * 512 + r.val; omega) e02,
    iblk1_apply m c t j ⟨win0_6.index t (0 : Fin 3), hb⟩ e10 e11 e12,
    funext fun n => iblk3_apply m c t n e30 e31, funext fun n => iblk4_apply m c t n e40 e41]

/-- An index of the weights array is in point `t`'s block iff each coordinate is in the block's range on its axis. -/
theorem mem_blk6 (t : Fin cfg0.N) (i : S8x2048x2048.Idx) :
    i ∈ ((cfg0.win 6).blk t).view.set ↔ ∀ a : Fin 3, win0_6.index t a * S1x512x2048.size a ≤ (i a).val ∧ (i a).val < win0_6.index t a * S1x512x2048.size a + S1x512x2048.size a := by
  show i ∈ ((View.whole main_v6_1).slice (win0_6.rect t)).set ↔ _
  rw [View.set_slice_whole, Rect.mem_set_unit]
  exact Iff.rfl

/-- The blocks tile the weights array: row `(b, q)` is in the block of the point at (batch row `b`, query tile `q / 512`). -/
theorem cover6 (i : S8x2048x2048.Idx) : ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 2048 := (i 2).isLt
  obtain ⟨t, ht0, ht1⟩ := idx_onto ⟨(i 0).val, h0⟩ ⟨(i 1).val / 512, by omega⟩
  have ht0' : win0_6.index t (0 : Fin 3) = (i 0).val := ht0
  have ht1' : win0_6.index t (1 : Fin 3) = (i 1).val / 512 := ht1
  obtain ⟨e00, e01, e02, e10, e11, e12, e20, e21, e22, e30, e31, e40, e41, e50, e51, e52, e60, e61, e62⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 2048 ≤ (i 2).val ∧ (i 2).val < win0_6.index t (2 : Fin 3) * 2048 + 2048; omega

/-- THE WEIGHTS ARRAY after the run: the attention weights of the argument arrays. -/
theorem final6 (c : Dev nD) : (dats m 0 c).arrAt 6 cfg0.N
    = Cert.Attn.weightsK (m ((c : Thread nD τ).loc main_arg0)) (m ((c : Thread nD τ).loc main_arg1)) (m ((c : Thread nD τ).loc main_arg3)) (m ((c : Thread nD τ).loc main_arg4)) :=
  (dats m 0 c).arrAt_eq_of_cover 6 _ (fun t _ => flushed6_eq m c t) cover6

/-- WHAT POINT `t` WRITES BACK to the attended-values array is block `t` of the attended values of the argument arrays. -/
theorem flushed5_eq (c : Dev nD) (t : Fin cfg0.N) :
    (dats m 0 c).flushed 5 t = ((cfg0.win 5).blk t).view.read (Elt Ideal)
      (Cert.Attn.attendedK (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed5]
  obtain ⟨e00, e01, e02, e10, e11, e12, e20, e21, e22, e30, e31, e40, e41, e50, e51, e52, e60, e61, e62⟩ := idx_facts t
  funext y
  obtain ⟨u, r, n, rfl⟩ : ∃ (u : Fin 1) (r : Fin 512) (n : Fin 64), y = ix3 u r n := ⟨y 0, y 1, y 2, eq_ix3 y⟩
  obtain rfl : u = 0 := Subsingleton.elim _ _
  have hb : win0_6.index t (0 : Fin 3) < 8 := by omega
  have hq : win0_6.index t (1 : Fin 3) * 512 + r.val < 2048 := by have := r.isLt; omega
  have hi : ((cfg0.win 5).blk t).view.emb (ix3 (0 : Fin 1) r n)
      = ix3 (⟨win0_6.index t (0 : Fin 3), hb⟩ : Fin 8) (⟨win0_6.index t (1 : Fin 3) * 512 + r.val, hq⟩ : Fin 2048) n := by
    funext a; apply Fin.ext
    match a with
    | ⟨0, _⟩ => show win0_5.index t (0 : Fin 3) * 1 + 1 * 0 = win0_6.index t (0 : Fin 3); omega
    | ⟨1, _⟩ => show win0_5.index t (1 : Fin 3) * 512 + 1 * r.val = win0_6.index t (1 : Fin 3) * 512 + r.val; omega
    | ⟨2, _⟩ => show win0_5.index t (2 : Fin 3) * 64 + 1 * n.val = n.val; omega
  show out0_5 (iblk m c 0 t) (iblk m c 1 t) (iblk m c 2 t) (iblk m c 3 t) (iblk m c 4 t) (ix3 (0 : Fin 1) r n)
    = Cert.Attn.attendedK _ _ _ _ _ (((cfg0.win 5).blk t).view.emb (ix3 (0 : Fin 1) r n))
  rw [hi]
  unfold out0_5
  rw [canon5_eq]
  simp only [View.ld_unit_zero (S := S1x64) hz2, View.ld_unit_zero (S := S1x512x1) hz3, View.ld_unit_zero (S := S1x1x2048) hz3]
  refine (Cert.Attn.Ker.E5_apply _ _ _ _ _ r n).trans ?_
  have hW : (fun n => (iblk m c 3 t : Vec Ideal S1x64 .f32) (ix2 (0 : Fin 1) n)) = Cert.Attn.wvec (m ((c : Thread nD τ).loc main_arg3)) :=
    funext fun n => iblk3_apply m c t n e30 e31
  have hB : (fun n => (iblk m c 4 t : Vec Ideal S1x64 .f32) (ix2 (0 : Fin 1) n)) = Cert.Attn.bvec (m ((c : Thread nD τ).loc main_arg4)) :=
    funext fun n => iblk4_apply m c t n e40 e41
  have hV : (fun k => (iblk m c 2 t : Vec Ideal S1x1x2048 .f32) (ix3 (0 : Fin 1) (0 : Fin 1) k))
      = fun k => (m ((c : Thread nD τ).loc main_arg2) : S8x2048.Idx → EReal) (ix2 (⟨win0_6.index t (0 : Fin 3), hb⟩ : Fin 8) k) :=
    funext fun k => iblk2_apply m c t k ⟨win0_6.index t (0 : Fin 3), hb⟩ e20 e21 e22
  have hS : Cert.Attn.Ker.rowScores (iblk m c 3 t) (iblk m c 0 t) (iblk m c 1 t) (iblk m c 4 t) r
      = Cert.Attn.scoresK (m ((c : Thread nD τ).loc main_arg0)) (m ((c : Thread nD τ).loc main_arg1)) (m ((c : Thread nD τ).loc main_arg3)) (m ((c : Thread nD τ).loc main_arg4))
          ⟨win0_6.index t (0 : Fin 3), hb⟩ ⟨win0_6.index t (1 : Fin 3) * 512 + r.val, hq⟩ := funext fun j => by
    show Cert.Attn.scoreK (fun n => (iblk m c 3 t : Vec Ideal S1x64 .f32) (ix2 (0 : Fin 1) n)) (fun n => (iblk m c 4 t : Vec Ideal S1x64 .f32) (ix2 (0 : Fin 1) n))
        ((iblk m c 0 t : Vec Ideal S1x512x1 .f32) (ix3 (0 : Fin 1) r (0 : Fin 1))) ((iblk m c 1 t : Vec Ideal S1x1x2048 .f32) (ix3 (0 : Fin 1) (0 : Fin 1) j))
      = Cert.Attn.scoreK _ _ _ _
    rw [hW, hB, iblk0_apply m c t r ⟨win0_6.index t (0 : Fin 3), hb⟩ ⟨win0_6.index t (1 : Fin 3) * 512 + r.val, hq⟩ e00 (by show win0_0.index t (1 : Fin 3) * 512 + r.val = win0_6.index t (1 : Fin 3) * 512 + r.val; omega) e02,
      iblk1_apply m c t j ⟨win0_6.index t (0 : Fin 3), hb⟩ e10 e11 e12]
  show Cert.Attn.attK (fun n => (iblk m c 3 t : Vec Ideal S1x64 .f32) (ix2 (0 : Fin 1) n)) (fun n => (iblk m c 4 t : Vec Ideal S1x64 .f32) (ix2 (0 : Fin 1) n))
      (Cert.Attn.softmax (Cert.Attn.Ker.rowScores (iblk m c 3 t) (iblk m c 0 t) (iblk m c 1 t) (iblk m c 4 t) r))
      (fun k => (iblk m c 2 t : Vec Ideal S1x1x2048 .f32) (ix3 (0 : Fin 1) (0 : Fin 1) k)) n
    = Cert.Attn.attK (Cert.Attn.wvec (m ((c : Thread nD τ).loc main_arg3))) (Cert.Attn.bvec (m ((c : Thread nD τ).loc main_arg4)))
      (Cert.Attn.softmax (Cert.Attn.scoresK (m ((c : Thread nD τ).loc main_arg0)) (m ((c : Thread nD τ).loc main_arg1)) (m ((c : Thread nD τ).loc main_arg3)) (m ((c : Thread nD τ).loc main_arg4))
          ⟨win0_6.index t (0 : Fin 3), hb⟩ ⟨win0_6.index t (1 : Fin 3) * 512 + r.val, hq⟩))
      (fun k => (m ((c : Thread nD τ).loc main_arg2) : S8x2048.Idx → EReal) (ix2 (⟨win0_6.index t (0 : Fin 3), hb⟩ : Fin 8) k)) n
  rw [hS, hW, hB, hV]

/-- An index of the attended-values array is in point `t`'s block iff each coordinate is in the block's range on its axis. -/
theorem mem_blk5 (t : Fin cfg0.N) (i : S8x2048x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v6_0).slice (win0_5.rect t)).set ↔ _
  rw [View.set_slice_whole, Rect.mem_set_unit]
  exact Iff.rfl

/-- The blocks tile the attended-values array likewise. -/
theorem cover5 (i : S8x2048x64.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 64 := (i 2).isLt
  obtain ⟨t, ht0, ht1⟩ := idx_onto ⟨(i 0).val, h0⟩ ⟨(i 1).val / 512, by omega⟩
  have ht0' : win0_6.index t (0 : Fin 3) = (i 0).val := ht0
  have ht1' : win0_6.index t (1 : Fin 3) = (i 1).val / 512 := ht1
  obtain ⟨e00, e01, e02, e10, e11, e12, e20, e21, e22, e30, e31, e40, e41, e50, e51, e52, e60, e61, e62⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-- THE ATTENDED-VALUES ARRAY after the run: the attended values of the argument arrays. -/
theorem final5 (c : Dev nD) : (dats m 0 c).arrAt 5 cfg0.N
    = Cert.Attn.attendedK (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed5_eq m c t) cover5

/-! ## The run, read -/

/-- The kernel's run with both result arrays at their functions of the argument arrays, the arguments unchanged. -/
theorem run : θ_run defs (onTc (τ := τ) (main (F := Ideal))) ⟨m, fun _ => 0, ρ⟩ fun r => ∀ c : Dev nD,
      r.2.mem ((c : Thread nD τ).loc main_v6_0)
          = Cert.Attn.attendedK (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v6_1)
          = Cert.Attn.weightsK (m ((c : Thread nD τ).loc main_arg0)) (m ((c : Thread nD τ).loc main_arg1)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (run_blocks m ρ)

end Cert.Attn.Arr

end
-- ==== Proof.lean ====
/-
  The kernel against its reference, over the extended reals.

  Inputs: three arrays `query, key, value : [8, 2048]`, a weight column `W : [64, 1]` and a bias `β : [64]`. Every scalar `x` of
  the three sequences is lifted to the vector `x·W + β` of length 64, and attention is taken over the lifted sequences, batch row by
  batch row: the scores `score(q, k) = ∑ₙ (q·Wₙ + βₙ)·(k·Wₙ + βₙ)`, the weights `softmax` of a row of scores over the keys (after
  subtracting the row's maximum), and the attended values `∑ₖ weight(q, k)·(vₖ·Wₙ + βₙ)`. Both programs return the attended values
  `[8, 2048, 64]` and the weights `[8, 2048, 2048]`.

  The reference computes exactly that (two batched matrix products around a softmax). The kernel never forms the lifted vectors: it
  expands the score into `(∑ₙ Wₙ²)·(q·k) + (∑ₙ Wₙβₙ)·q + (∑ₙ Wₙβₙ)·k + ∑ₙ βₙ²`, takes the same softmax, and returns
  `(∑ₖ weight(q, k)·vₖ)·Wₙ + βₙ`, using that the weights of a row sum to one. On real entries the two are the same functions
  (distributivity; the weights of a row of real scores are positive reals summing to one); at an infinite entry they need not be,
  and the precondition — every input entry finite — is what the equality rests on.

  The modules: `Spec` states both spellings as functions of the five arrays; `Algebra` proves them equal on real entries; `Finite` reads
  "every entry is a real number" off the precondition; `RefIs` shows the reference's two results are its spelling; `KerPay` reads the
  block a grid point computes at an index (the kernel's spelling, over the point's input blocks), and `KerArr` carries the 32 blocks
  to the two whole arrays. Here the five conjuncts are put together: the two kernel frames, the reference's frame (its run with the
  results dropped), the idealization (nothing was rewritten), and the equality of results.
-/
import proofs.«170892_j31679678775913_2_alg».proof.Defs
import proofs.«170892_j31679678775913_2_alg».proof.Proof.Gen.Kernel
import proofs.«170892_j31679678775913_2_alg».proof.Proof.Gen.Kernel.Skeleton
import proofs.«170892_j31679678775913_2_alg».proof.Proof.Gen.Kernel.Launch
import proofs.«170892_j31679678775913_2_alg».proof.Proof.Gen.Kernel.Points
import proofs.«170892_j31679678775913_2_alg».proof.Proof.Gen.Kernel.Frame
import proofs.«170892_j31679678775913_2_alg».proof.Proof.Gen.KernelIdeal
import proofs.«170892_j31679678775913_2_alg».proof.Proof.Gen.KernelIdeal.Skeleton
import proofs.«170892_j31679678775913_2_alg».proof.Proof.Gen.KernelIdeal.Launch
import proofs.«170892_j31679678775913_2_alg».proof.Proof.Gen.KernelIdeal.Points
import proofs.«170892_j31679678775913_2_alg».proof.Proof.Gen.KernelIdeal.Frame
import proofs.«170892_j31679678775913_2_alg».proof.Proof.Gen.ReferenceIdeal
import proofs.«170892_j31679678775913_2_alg».proof.Proof.Gen.Pre_finite_inputs
import proofs.«170892_j31679678775913_2_alg».proof.Proof.KernelValue
import proofs.«170892_j31679678775913_2_alg».proof.Proof.Gen.ReferenceIdeal.Run
import proofs.«170892_j31679678775913_2_alg».proof.Proof.Gen.ReferenceIdeal.Read
import proofs.«170892_j31679678775913_2_alg».proof.Proof.Spec
import proofs.«170892_j31679678775913_2_alg».proof.Proof.Algebra
import proofs.«170892_j31679678775913_2_alg».proof.Proof.Finite
import proofs.«170892_j31679678775913_2_alg».proof.Proof.RefIs
import proofs.«170892_j31679678775913_2_alg».proof.Proof.KerArr
import Idealize.ShloMosaic.Adequacy
import Idealize.ShloMosaic.Init

noncomputable section

open Idealize.ShloMosaic Idealize.ShloMosaic.TcCoe Idealize.SL.Sem

/-! ## The claims -/

namespace Cert.Proof.Claims

theorem frame_p : Cert.frame_Kernel := fun m ρ _ => Cert.Kernel.Gen.frame m ρ
theorem frame_pi : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten when the kernel was idealized: there is no conjunct to prove. -/
theorem preserves : Cert.preserves_Kernel_KernelIdeal := trivial

/-- At the extended reals the kernel ends with the attended values and the attention weights in its own spelling and
    the reference with them in its spelling, of arguments that agree; the two spellings are one function wherever every
    argument entry is a real number, which the precondition says. -/
theorem algebraic : Cert.algebraic_KernelIdeal_ReferenceIdeal := by
  intro m ρ m' ρ' hpre hagree
  refine ⟨_, _, Cert.Attn.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4⟩ := hagree c
    obtain ⟨hQ, hK, hV, hW, hB⟩ := Cert.Attn.Finite.real_of_fn _ _ _ _ _ (hpre c)
    refine (Cert.ReferenceIdeal.Read.val_main_v39_eq m' c).trans ?_
    refine (Cert.Attn.Ref.attended_eq _ _ _ _ _).trans ?_
    rw [e0, e1, e2, e3, e4]
    exact (Cert.Attn.attendedK_eq_attendedR _ _ _ _ _ hQ hK hV hW hB).symm
  · obtain ⟨e0, e1, e2, e3, e4⟩ := hagree c
    obtain ⟨hQ, hK, hV, hW, hB⟩ := Cert.Attn.Finite.real_of_fn _ _ _ _ _ (hpre c)
    refine (Cert.ReferenceIdeal.Read.val_main_v38_eq m' c).trans ?_
    refine (Cert.Attn.Ref.weights_eq _ _ _ _).trans ?_
    rw [e0, e1, e3, e4]
    exact (Cert.Attn.weightsK_eq_weightsR _ _ _ _ hQ hK hW hB).symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
